-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x64 .f32) (main_arg3 : FVec F S64 .f32) (main_arg4 : FVec F S64x40 .f32) (main_arg5 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x256 : Shape := ⟨2, ![5000, 256]⟩
abbrev S5000x64 : Shape := ⟨2, ![5000, 64]⟩
abbrev S850000x64 : Shape := ⟨2, ![850000, 64]⟩
abbrev S1x64 : Shape := ⟨2, ![1, 64]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 77
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x64, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x64, .f32⟩
  | .hbm, ⟨49, _⟩ => ⟨S850000x1, .f32⟩
  | .hbm, ⟨50, _⟩ => ⟨S850000x64, .f32⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x40, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x40, .f32⟩
  | .hbm, ⟨68, _⟩ => ⟨S850000x1, .f32⟩
  | .hbm, ⟨69, _⟩ => ⟨S850000x40, .f32⟩
  | .hbm, ⟨70, _⟩ => ⟨S850000x40, .f32⟩
  | .hbm, ⟨71, _⟩ => ⟨S_, .f32⟩
  | .hbm, ⟨72, _⟩ => ⟨S50000x40, .f32⟩
  | .hbm, ⟨73, _⟩ => ⟨S850000x1, .i32⟩
  | .hbm, ⟨74, _⟩ => ⟨S50000x40, .f32⟩
  | .hbm, ⟨75, _⟩ => ⟨S1x40, .f32⟩
  | .hbm, ⟨76, _⟩ => ⟨S50000x40, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x64_S5000x64_1_0_0_1_n_n_wf : DotDims.WF S5000x256 S256x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x40_S5000x40_1_0_0_1_n_n_wf : DotDims.WF S5000x64 S64x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 97
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x64, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x64, .f32⟩
  | .hbm, ⟨49, _⟩ => ⟨S850000x1, .f32⟩
  | .hbm, ⟨50, _⟩ => ⟨S850000x64, .f32⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S50000x40, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x40, .f32⟩
  | .hbm, ⟨72, _⟩ => ⟨S850000x1, .f32⟩
  | .hbm, ⟨73, _⟩ => ⟨S850000x40, .f32⟩
  | .hbm, ⟨74, _⟩ => ⟨S850000x40, .f32⟩
  | .hbm, ⟨75, _⟩ => ⟨S_, .f32⟩
  | .hbm, ⟨76, _⟩ => ⟨S50000x40, .f32⟩
  | .hbm, ⟨77, _⟩ => ⟨S850000x1, .i32⟩
  | .hbm, ⟨78, _⟩ => ⟨S50000x40, .f32⟩
  | .hbm, ⟨79, _⟩ => ⟨S1x40, .f32⟩
  | .hbm, ⟨80, _⟩ => ⟨S50000x40, .f32⟩
  | .hbm, ⟨81, _⟩ => ⟨S50000x40, .f32⟩
  | .hbm, ⟨82, _⟩ => ⟨S_, .f32⟩
  | .hbm, ⟨83, _⟩ => ⟨S50000, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S50000x1, .f32⟩
  | .hbm, ⟨88, _⟩ => ⟨S50000x40, .f32⟩
  | .hbm, ⟨89, _⟩ => ⟨S50000x40, .f32⟩
  | .hbm, ⟨90, _⟩ => ⟨S50000x40, .f32⟩
  | .hbm, ⟨91, _⟩ => ⟨S_, .f32⟩
  | .hbm, ⟨92, _⟩ => ⟨S50000, .f32⟩
  | .hbm, ⟨93, _⟩ => ⟨S50000x1, .f32⟩
  | .hbm, ⟨94, _⟩ => ⟨S50000x1, .f32⟩
  | .hbm, ⟨95, _⟩ => ⟨S50000x40, .f32⟩
  | .hbm, ⟨96, _⟩ => ⟨S50000x40, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call1_cst : Ref sig .tc := ⟨.hbm, 82, rfl⟩
abbrev main_call1_v0 : Ref sig .tc := ⟨.hbm, 83, rfl⟩
abbrev main_call1_cst_0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_cst_1 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_v62 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x40_S50000x40_1_0_0_1_n_n_wf : DotDims.WF S50000x64 S64x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The idealized kernel's run with its result named. Every weakly fair execution of the program (host operations,
  then four pipelined regions with host operations between them) terminates without a fault; the argument arrays end
  as launched, and the result array ends at the last boundary's contents: the fold, from the launch memory, of each
  host stretch's operations and each region's write-backs.
-/
import proofs.«154348_j75479755260510_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's seven segments; the last thread state holds every unscoped buffer at the
    last boundary's contents, of which the result array and the six argument arrays are read. -/
theorem run_result : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Gen

end
-- ==== Proof.HostFns.lean ====
/-
  The host side of the graph convolution as functions of arrays. From the edge list e : [2, 800000] the program forms
  the source and destination lists with one self loop per node appended, the in-degree (with self loops) of every
  node by adding a one per edge at its destination, its inverse square root, and the weight of an edge as the product
  of that quantity at its two ends. A layer's aggregation gathers the rows of a feature matrix at the edges' sources,
  scales each gathered row by its edge's weight, and adds it into the row of the edge's destination.
  A negative index is first moved up by the number of nodes, as the gather's indexing convention asks.
-/
import proofs.«154348_j75479755260510_1_alg».proof.KernelIdeal

noncomputable section

namespace Cert.KernelIdeal.HostFns

open Cert.KernelIdeal Cert.KernelIdeal.Facts₀ Cert.KernelIdeal.Facts Idealize.ShloMosaic Idealize.SL.Sem

variable {F : FTy → Type} [FloatOps F] [Cert.KernelIdeal.Facts]

/-- The sources of the edges followed by the nodes themselves: row 0 of the edge list, then 0 … 49999. -/
def srcOf (e : (⟨S2x800000, .i32⟩ : BufTy).Contents (Elt F)) : (⟨S850000, .i32⟩ : BufTy).Contents (Elt F) :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- The destinations of the edges followed by the nodes themselves: row 1 of the edge list, then 0 … 49999. -/
def dstOf (e : (⟨S2x800000, .i32⟩ : BufTy).Contents (Elt F)) : (⟨S850000, .i32⟩ : BufTy).Contents (Elt F) :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- A list of node indices with every negative one moved up by the number of nodes, as a column of start indices. -/
def startsOf (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The inverse square root of every node's in-degree, self loop included. -/
def invSqrtDeg (d : (⟨S850000, .i32⟩ : BufTy).Contents (Elt F)) : (⟨S50000, .f32⟩ : BufTy).Contents (Elt F) :=
  Host.rsqrt (Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32)))

/-- The weight of every edge: the product of the inverse square roots of the in-degrees of its two ends. -/
def weightOf (s d : (⟨S850000, .i32⟩ : BufTy).Contents (Elt F)) : (⟨S850000, .f32⟩ : BufTy).Contents (Elt F) :=
  mulf (Host.gather gather_S50000_S850000x1_S850000_n_0_n_n_0_1_1 (invSqrtDeg d) (startsOf s))
    (Host.gather gather_S50000_S850000x1_S850000_n_0_n_n_0_1_1 (invSqrtDeg d) (startsOf d))

/-- The aggregation of a [50000, 64] feature matrix: gather at the sources, scale by the weights, add at the destinations. -/
def aggregate64 (h : (⟨S50000x64, .f32⟩ : BufTy).Contents (Elt F)) (s d : (⟨S850000, .i32⟩ : BufTy).Contents (Elt F))
    (w : (⟨S850000, .f32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 d)
    (mulf (Host.gather gather_S50000x64_S850000x1_S850000x64_1_0_n_n_0_1_164 h (startsOf s))
      (broadcastInDim S850000x64 ![0, 1] bcast_S850000x1_S850000x64_0_1 (broadcastInDim S850000x1 ![0] bcast_S850000_S850000x1_0 w)))

/-- The aggregation of a [50000, 40] feature matrix. -/
def aggregate40 (h : (⟨S50000x40, .f32⟩ : BufTy).Contents (Elt F)) (s d : (⟨S850000, .i32⟩ : BufTy).Contents (Elt F))
    (w : (⟨S850000, .f32⟩ : BufTy).Contents (Elt F)) : (⟨S50000x40, .f32⟩ : BufTy).Contents (Elt F) :=
  Host.scatterAdd scatter_S50000x40_S850000x1_S850000x40_1_0_0_1
    (broadcastInDim S50000x40 ![] bcast_S_S50000x40 (constant S_ .f32 0x00000000#32))
    (broadcastInDim S850000x1 ![0] bcast_S850000_S850000x1_0 d)
    (mulf (Host.gather gather_S50000x40_S850000x1_S850000x40_1_0_n_n_0_1_140 h (startsOf s))
      (broadcastInDim S850000x40 ![0, 1] bcast_S850000x1_S850000x40_0_1 (broadcastInDim S850000x1 ![0] bcast_S850000_S850000x1_0 w)))

end Cert.KernelIdeal.HostFns

end
-- ==== Proof.KernelHost.lean ====
/-
  The kernel program's host stretches read back. Between its four on-chip stages the program runs plain host
  operations; here each buffer those stages and the later stretches read is stated as a function of what the earlier
  boundary holds: the edge lists and the edge weights after the first stretch, the first layer's aggregation after the
  second, the second layer's aggregation after the third, the two biases as rows, and every buffer a stretch or a
  stage does not write as unchanged across it.
-/
import proofs.«154348_j75479755260510_1_alg».proof.Proof.KernelRun
import proofs.«154348_j75479755260510_1_alg».proof.Proof.HostFns
import Idealize.ShloMosaic.Lib.StableHlo.Run

set_option maxRecDepth 16384

noncomputable section

namespace Cert.KernelIdeal.Chain

open Cert.KernelIdeal Cert.KernelIdeal.Gen Cert.KernelIdeal.HostFns
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the first stretch: the edge lists, the weights, and the untouched arguments -/

theorem W1_src (c : Dev nD) : W1 m ρ c (Proc.devRef .tc main_v3) = srcOf (m ((c : Thread nD τ).loc main_arg1)) := by
  show StableHlo.after hostOps0 (W0 m ρ c) (Proc.devRef .tc main_v3) = _
  after_results
  rfl

theorem W1_dst (c : Dev nD) : W1 m ρ c (Proc.devRef .tc main_v6) = dstOf (m ((c : Thread nD τ).loc main_arg1)) := by
  show StableHlo.after hostOps0 (W0 m ρ c) (Proc.devRef .tc main_v6) = _
  after_results
  rfl

theorem W1_weight (c : Dev nD) : W1 m ρ c (Proc.devRef .tc main_v26)
    = weightOf (srcOf (m ((c : Thread nD τ).loc main_arg1))) (dstOf (m ((c : Thread nD τ).loc main_arg1))) := by
  show StableHlo.after hostOps0 (W0 m ρ c) (Proc.devRef .tc main_v26) = _
  after_results_simp
  unfold weightOf invSqrtDeg startsOf srcOf dstOf
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results

/-! ## The second stretch: the first layer's aggregation and the first bias as a row -/

theorem W3_agg (c : Dev nD) : W3 m ρ c (Proc.devRef .tc main_v40)
    = aggregate64 (W2 m ρ c (Proc.devRef .tc main_v27)) (W2 m ρ c (Proc.devRef .tc main_v3)) (W2 m ρ c (Proc.devRef .tc main_v6))
        (W2 m ρ c (Proc.devRef .tc main_v26)) := by
  show StableHlo.after hostOps1 (W2 m ρ c) (Proc.devRef .tc main_v40) = _
  after_results_simp
  unfold aggregate64 startsOf
  rfl

theorem W3_bias (c : Dev nD) : W3 m ρ c (Proc.devRef .tc main_v41)
    = shapeCast S1x64 (W2 m ρ c (Proc.devRef .tc main_arg3)) shapeCasts_S64_S1x64 := by
  show StableHlo.after hostOps1 (W2 m ρ c) (Proc.devRef .tc main_v41) = _
  after_results
  rfl

theorem W3_keep_src (c : Dev nD) : W3 m ρ c (Proc.devRef .tc main_v3) = W2 m ρ c (Proc.devRef .tc main_v3) := by
  show StableHlo.after hostOps1 (W2 m ρ c) (Proc.devRef .tc main_v3) = _
  after_results
theorem W3_keep_dst (c : Dev nD) : W3 m ρ c (Proc.devRef .tc main_v6) = W2 m ρ c (Proc.devRef .tc main_v6) := by
  show StableHlo.after hostOps1 (W2 m ρ c) (Proc.devRef .tc main_v6) = _
  after_results
theorem W3_keep_weight (c : Dev nD) : W3 m ρ c (Proc.devRef .tc main_v26) = W2 m ρ c (Proc.devRef .tc main_v26) := by
  show StableHlo.after hostOps1 (W2 m ρ c) (Proc.devRef .tc main_v26) = _
  after_results
theorem W3_keep_arg4 (c : Dev nD) : W3 m ρ c (Proc.devRef .tc main_arg4) = W2 m ρ c (Proc.devRef .tc main_arg4) := by
  show StableHlo.after hostOps1 (W2 m ρ c) (Proc.devRef .tc main_arg4) = _
  after_results
theorem W3_keep_arg5 (c : Dev nD) : W3 m ρ c (Proc.devRef .tc main_arg5) = W2 m ρ c (Proc.devRef .tc main_arg5) := by
  show StableHlo.after hostOps1 (W2 m ρ c) (Proc.devRef .tc main_arg5) = _
  after_results

/-! ## The third stretch: the second layer's aggregation and the second bias as a row -/

theorem W6_agg (c : Dev nD) : W6 m ρ c (Proc.devRef .tc main_v56)
    = aggregate40 (W5 m ρ c (Proc.devRef .tc main_v43)) (W5 m ρ c (Proc.devRef .tc main_v3)) (W5 m ρ c (Proc.devRef .tc main_v6))
        (W5 m ρ c (Proc.devRef .tc main_v26)) := by
  show StableHlo.after hostOps3 (W5 m ρ c) (Proc.devRef .tc main_v56) = _
  after_results_simp
  unfold aggregate40 startsOf
  rfl

theorem W6_bias (c : Dev nD) : W6 m ρ c (Proc.devRef .tc main_v57)
    = shapeCast S1x40 (W5 m ρ c (Proc.devRef .tc main_arg5)) shapeCasts_S40_S1x40 := by
  show StableHlo.after hostOps3 (W5 m ρ c) (Proc.devRef .tc main_v57) = _
  after_results
  rfl

/-! ## A stage writes only its own result array -/

theorem W2_keep (c : Dev nD) (b : Ref sig .tc) (hb : ∀ w, Pipeline.arrRef spec0 w ≠ b) :
    W2 m ρ c (Proc.devRef .tc b) = W1 m ρ c (Proc.devRef .tc b) := W2_of_ne m ρ c b hb
theorem W4_keep (c : Dev nD) (b : Ref sig .tc) (hb : ∀ w, Pipeline.arrRef spec1 w ≠ b) :
    W4 m ρ c (Proc.devRef .tc b) = W3 m ρ c (Proc.devRef .tc b) := W4_of_ne m ρ c b hb
theorem W5_keep (c : Dev nD) (b : Ref sig .tc) (hb : ∀ w, Pipeline.arrRef spec2 w ≠ b) :
    W5 m ρ c (Proc.devRef .tc b) = W4 m ρ c (Proc.devRef .tc b) := W5_of_ne m ρ c b hb

end Cert.KernelIdeal.Chain

end
-- ==== Proof.Spec.lean ====
/-
  Three whole-array functions over the extended reals, stated entry by entry. They are what the four on-chip stages
  of a two-layer graph convolution compute and, equally, what the corresponding host operations compute:
  the plain matrix product, a row bias followed by the positive part, and a row bias followed by the row-wise
  log-softmax (each entry minus its row's maximum, minus the logarithm of the row's sum of exponentials of those
  differences).
-/
import Idealize.ShloMosaic.Lib.ValueIdx
import Idealize.ShloMosaic.PureOps.Ideal

noncomputable section

namespace Cert.Gcn

open Idealize.ShloMosaic Idealize.ShloMosaic.ValueIdx

variable {M K N : ℕ}

/-- Entry (r, c) of the product of an [M, K] matrix with a [K, N] matrix: the sum over k of x(r, k) · w(k, c). -/
def dense (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem dense_apply (x : (⟨2, ![M, K]⟩ : Shape).Idx → EReal) (w : (⟨2, ![K, N]⟩ : Shape).Idx → EReal) (r : Fin M) (c : Fin N) :
    dense x w (ix2 r c) = ∑ k : Fin K, x (ix2 r k) * w (ix2 k c) := rfl

/-- Entry (r, c) of a matrix plus a row vector, cut off below at zero: max (a(r, c) + b(0, c)) 0. -/
def biasRelu (a : (⟨2, ![M, N]⟩ : Shape).Idx → EReal) (b : (⟨2, ![1, N]⟩ : Shape).Idx → EReal) :
    (⟨2, ![M, N]⟩ : Shape).Idx → EReal :=
  fun i => max (a i + b (ix2 (0 : Fin 1) (i 1))) 0

theorem biasRelu_apply (a : (⟨2, ![M, N]⟩ : Shape).Idx → EReal) (b : (⟨2, ![1, N]⟩ : Shape).Idx → EReal) (r : Fin M) (c : Fin N) :
    biasRelu a b (ix2 r c) = max (a (ix2 r c) + b (ix2 (0 : Fin 1) c)) 0 := rfl

/-- Row r of a matrix plus a row vector, as a function of the column. -/
def shifted (a : (⟨2, ![M, N]⟩ : Shape).Idx → EReal) (b : (⟨2, ![1, N]⟩ : Shape).Idx → EReal) (r : Fin M) (j : Fin N) : EReal :=
  a (ix2 r j) + b (ix2 (0 : Fin 1) j)

/-- The maximum of that row (the bottom element for an empty row). -/
def rowMax (a : (⟨2, ![M, N]⟩ : Shape).Idx → EReal) (b : (⟨2, ![1, N]⟩ : Shape).Idx → EReal) (r : Fin M) : EReal :=
  (Finset.univ : Finset (Fin N)).fold max ⊥ (shifted a b r)

/-- The row's sum of exponentials of the entries' differences from the row's maximum. -/
def rowExpSum (a : (⟨2, ![M, N]⟩ : Shape).Idx → EReal) (b : (⟨2, ![1, N]⟩ : Shape).Idx → EReal) (r : Fin M) : EReal :=
  ∑ j : Fin N, Ideal.exp (shifted a b r j - rowMax a b r)

/-- Entry (r, c) of the row-wise log-softmax of a matrix plus a row vector. -/
def biasLogSoftmax (a : (⟨2, ![M, N]⟩ : Shape).Idx → EReal) (b : (⟨2, ![1, N]⟩ : Shape).Idx → EReal) :
    (⟨2, ![M, N]⟩ : Shape).Idx → EReal :=
  fun i => (shifted a b (i 0) (i 1) - rowMax a b (i 0)) - Ideal.log (rowExpSum a b (i 0))

theorem biasLogSoftmax_apply (a : (⟨2, ![M, N]⟩ : Shape).Idx → EReal) (b : (⟨2, ![1, N]⟩ : Shape).Idx → EReal) (r : Fin M) (c : Fin N) :
    biasLogSoftmax a b (ix2 r c) = (shifted a b r c - rowMax a b r) - Ideal.log (rowExpSum a b r) := rfl

/-- The bit pattern of minus infinity denotes the bottom element. -/
theorem ofBits_neg_inf_f32 : Ideal.ofBits .f32 0xFF800000#32 = ⊥ := by simp [Ideal.ofBits, Ideal.ieee]

end Cert.Gcn

end
-- ==== Proof.KernelValue.lean ====
/-
  The kernel program's result as one function of its six argument arrays, over the extended reals. Walking back from
  the return: the last stage's array is the row-wise log-softmax of (second aggregation + second bias); the second
  aggregation gathers, scales and adds the rows of the second dense product; that product's left operand is the
  positive part of (first aggregation + first bias); the first aggregation is over the rows of the first dense
  product of the node features with the first weight matrix. What each on-chip stage leaves in its array is taken
  here as a hypothesis (one per stage, stated for arbitrary entry contents); the host stretches between them are
  read by the lemmas of the host side.
-/
import proofs.«154348_j75479755260510_1_alg».proof.Proof.KernelHost
import proofs.«154348_j75479755260510_1_alg».proof.Proof.Spec

set_option maxRecDepth 16384

noncomputable section

namespace Cert.KernelIdeal.Chain

open Cert.KernelIdeal Cert.KernelIdeal.Gen Cert.KernelIdeal.HostFns
open Idealize.ShloMosaic Idealize.ShloMosaic.TcCoe Idealize.SL.Sem Idealize.ShloMosaic.StableHlo

/-- The two-layer graph convolution followed by the row-wise log-softmax, as the kernel program computes it. -/
def kernelOut (x : (⟨S50000x256, .f32⟩ : BufTy).Contents (Elt Ideal)) (e : (⟨S2x800000, .i32⟩ : BufTy).Contents (Elt Ideal))
    (w1 : (⟨S256x64, .f32⟩ : BufTy).Contents (Elt Ideal)) (b1 : (⟨S64, .f32⟩ : BufTy).Contents (Elt Ideal))
    (w2 : (⟨S64x40, .f32⟩ : BufTy).Contents (Elt Ideal)) (b2 : (⟨S40, .f32⟩ : BufTy).Contents (Elt Ideal)) :
    (⟨S50000x40, .f32⟩ : BufTy).Contents (Elt Ideal) :=
  Cert.Gcn.biasLogSoftmax (M := 50000) (N := 40)
    (aggregate40
      (Cert.Gcn.dense (M := 50000) (K := 64) (N := 40)
        (Cert.Gcn.biasRelu (M := 50000) (N := 64)
          (aggregate64 (Cert.Gcn.dense (M := 50000) (K := 256) (N := 64) x w1) (srcOf e) (dstOf e) (weightOf (srcOf e) (dstOf e)))
          (shapeCast S1x64 b1 shapeCasts_S64_S1x64))
        w2)
      (srcOf e) (dstOf e) (weightOf (srcOf e) (dstOf e)))
    (shapeCast S1x40 b2 shapeCasts_S40_S1x40)

variable (m : (ℓ : Loc nD τ sig) → Buf (Elt Ideal) ℓ) (ρ : Dev nD → PrngReg)

/-- The entry contents a stage's hypothesis is stated for. -/
abbrev Entry := (c : Dev nD) → (b : Ref sig .tc) → Buf (Elt Ideal) ((c : Thread nD τ).loc b)

theorem result_eq
    (h0 : ∀ (V : Entry) (c : Dev nD), (dat0 (F := Ideal) V c).arrAt 2 cfg0.N = Cert.Gcn.dense (M := 50000) (K := 256) (N := 64) (V c main_arg0) (V c main_arg2))
    (h1 : ∀ (V : Entry) (c : Dev nD), (dat1 (F := Ideal) V c).arrAt 2 cfg1.N = Cert.Gcn.biasRelu (M := 50000) (N := 64) (V c main_v40) (V c main_v41))
    (h2 : ∀ (V : Entry) (c : Dev nD), (dat2 (F := Ideal) V c).arrAt 2 cfg2.N = Cert.Gcn.dense (M := 50000) (K := 64) (N := 40) (V c main_v42) (V c main_arg4))
    (h3 : ∀ (V : Entry) (c : Dev nD), (dat3 (F := Ideal) V c).arrAt 2 cfg3.N = Cert.Gcn.biasLogSoftmax (M := 50000) (N := 40) (V c main_v56) (V c main_v57))
    (c : Dev nD) :
    W7 m ρ c (Proc.devRef .tc main_v58)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  -- the edge lists and weights, unchanged from the first boundary on
  have s2 : W2 m ρ c (Proc.devRef .tc main_v3) = srcOf (m ((c : Thread nD τ).loc main_arg1)) :=
    (W2_keep m ρ c main_v3 (by decide)).trans (W1_src m ρ c)
  have d2 : W2 m ρ c (Proc.devRef .tc main_v6) = dstOf (m ((c : Thread nD τ).loc main_arg1)) :=
    (W2_keep m ρ c main_v6 (by decide)).trans (W1_dst m ρ c)
  have w2 : W2 m ρ c (Proc.devRef .tc main_v26) = weightOf (srcOf (m ((c : Thread nD τ).loc main_arg1))) (dstOf (m ((c : Thread nD τ).loc main_arg1))) :=
    (W2_keep m ρ c main_v26 (by decide)).trans (W1_weight m ρ c)
  have s5 : W5 m ρ c (Proc.devRef .tc main_v3) = srcOf (m ((c : Thread nD τ).loc main_arg1)) :=
    (W5_keep m ρ c main_v3 (by decide)).trans ((W4_keep m ρ c main_v3 (by decide)).trans ((W3_keep_src m ρ c).trans s2))
  have d5 : W5 m ρ c (Proc.devRef .tc main_v6) = dstOf (m ((c : Thread nD τ).loc main_arg1)) :=
    (W5_keep m ρ c main_v6 (by decide)).trans ((W4_keep m ρ c main_v6 (by decide)).trans ((W3_keep_dst m ρ c).trans d2))
  have w5 : W5 m ρ c (Proc.devRef .tc main_v26) = weightOf (srcOf (m ((c : Thread nD τ).loc main_arg1))) (dstOf (m ((c : Thread nD τ).loc main_arg1))) :=
    (W5_keep m ρ c main_v26 (by decide)).trans ((W4_keep m ρ c main_v26 (by decide)).trans ((W3_keep_weight m ρ c).trans w2))
  -- the arguments the later stages read
  have a3 : W2 m ρ c (Proc.devRef .tc main_arg3) = m ((c : Thread nD τ).loc main_arg3) :=
    (W2_keep m ρ c main_arg3 (by decide)).trans (W1_arg3 m ρ c)
  have a4 : W4 m ρ c (Proc.devRef .tc main_arg4) = m ((c : Thread nD τ).loc main_arg4) :=
    (W4_keep m ρ c main_arg4 (by decide)).trans ((W3_keep_arg4 m ρ c).trans ((W2_keep m ρ c main_arg4 (by decide)).trans (W1_arg4 m ρ c)))
  have a5 : W5 m ρ c (Proc.devRef .tc main_arg5) = m ((c : Thread nD τ).loc main_arg5) :=
    (W5_keep m ρ c main_arg5 (by decide)).trans ((W4_keep m ρ c main_arg5 (by decide)).trans ((W3_keep_arg5 m ρ c).trans
      ((W2_keep m ρ c main_arg5 (by decide)).trans (W1_arg5 m ρ c))))
  -- stage 0: the first dense product
  have p0 : W2 m ρ c (Proc.devRef .tc main_v27)
      = Cert.Gcn.dense (M := 50000) (K := 256) (N := 64) (m ((c : Thread nD τ).loc main_arg0)) (m ((c : Thread nD τ).loc main_arg2)) :=
    (W2_arr m ρ c 2).trans ((h0 (V1 m ρ) c).trans
      (congrArg₂ (Cert.Gcn.dense (M := 50000) (K := 256) (N := 64)) (W1_arg0 m ρ c) (W1_arg2 m ρ c)))
  -- the first aggregation and the first bias row
  have g1 : W3 m ρ c (Proc.devRef .tc main_v40)
      = aggregate64 (Cert.Gcn.dense (M := 50000) (K := 256) (N := 64) (m ((c : Thread nD τ).loc main_arg0)) (m ((c : Thread nD τ).loc main_arg2)))
          (srcOf (m ((c : Thread nD τ).loc main_arg1))) (dstOf (m ((c : Thread nD τ).loc main_arg1)))
          (weightOf (srcOf (m ((c : Thread nD τ).loc main_arg1))) (dstOf (m ((c : Thread nD τ).loc main_arg1)))) := by
    rw [W3_agg, p0, s2, d2, w2]
  have r1 : W3 m ρ c (Proc.devRef .tc main_v41) = shapeCast S1x64 (m ((c : Thread nD τ).loc main_arg3)) shapeCasts_S64_S1x64 := by
    rw [W3_bias, a3]
  -- stage 1: bias and positive part
  have p1 :=
    (W4_arr m ρ c 2).trans ((h1 (V3 m ρ) c).trans (congrArg₂ (Cert.Gcn.biasRelu (M := 50000) (N := 64)) g1 r1))
  -- stage 2: the second dense product
  have p2 :=
    (W5_arr m ρ c 2).trans ((h2 (V4 m ρ) c).trans (congrArg₂ (Cert.Gcn.dense (M := 50000) (K := 64) (N := 40)) p1 a4))
  -- the second aggregation and the second bias row
  have g2 := (W6_agg m ρ c).trans (congr (congr (congr (congrArg aggregate40 p2) s5) d5) w5)
  have r2 : W6 m ρ c (Proc.devRef .tc main_v57) = shapeCast S1x40 (m ((c : Thread nD τ).loc main_arg5)) shapeCasts_S40_S1x40 := by
    rw [W6_bias, a5]
  -- stage 3: bias and log-softmax
  exact (W7_arr m ρ c 2).trans ((h3 (V6 m ρ) c).trans (congrArg₂ (Cert.Gcn.biasLogSoftmax (M := 50000) (N := 40)) g2 r2))

end Cert.KernelIdeal.Chain

end
-- ==== Proof.LibFold.lean ====
/-
  A line of host operations run in two stretches.

  `StableHlo.after ops V` is the valuation after the operations `ops`, applied in order to the valuation `V`.  Running
  a concatenation is running the first stretch and then the second from what the first leaves.  With it a long
  prefix of host operations can be read stage by stage: a later stretch's result as a function of what the earlier
  stretches left at its operands, each operand then read in its own smaller stretch — instead of one composed term in
  which a value used several times is written out once per use.
-/
import Idealize.ShloMosaic.Lib.StableHlo.Run

namespace Idealize.ShloMosaic.StableHlo

variable {τ : Topo} {sig : RefSig} {Val : EltTy → Type}

/-- The valuation after two stretches run one after the other. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.RefStretches.lean ====
/-
  The reference program's operations in four stretches, and the fold over all of them as the composition of the four
  folds: the edge lists, in-degrees and edge weights; the first layer (dense product, aggregation, bias, positive
  part); the second layer (dense product, aggregation, bias); the row-wise log-softmax.
-/
import proofs.«154348_j75479755260510_1_alg».proof.Proof.RefRunP
import proofs.«154348_j75479755260510_1_alg».proof.Proof.LibFold

set_option maxRecDepth 16384

noncomputable section

namespace Cert.ReferenceIdeal.Stretches

open Cert.ReferenceIdeal Cert.ReferenceIdeal.Gen Idealize.ShloMosaic Idealize.ShloMosaic.TcCoe Idealize.SL.Sem Idealize.ShloMosaic.StableHlo

variable {F : FTy → Type} [FloatOps F]

/-- The first 33 operations: the edge lists with self loops, the in-degrees, the edge weights. -/
abbrev opsEdges : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_c (constantI S_ 32 0#32),
    unary main_c main_v12 (broadcastInDim S850000 ![] bcast_S_S850000 : (⟨S_, .i32⟩ : BufTy).Contents (Elt F) → (⟨S850000, .i32⟩ : BufTy).Contents (Elt F)),
    binary main_v3 main_v12 main_v13 (cmpi .slt : (⟨S850000, .i32⟩ : BufTy).Contents (Elt F) → (⟨S850000, .i32⟩ : BufTy).Contents (Elt F) → (⟨S850000, .i1⟩ : BufTy).Contents (Elt F)),
    nullary main_c_1 (constantI S_ 32 50000#32),
    unary main_c_1 main_v14 (broadcastInDim S850000 ![] bcast_S_S850000 : (⟨S_, .i32⟩ : BufTy).Contents (Elt F) → (⟨S850000, .i32⟩ : BufTy).Contents (Elt F)),
    binary main_v3 main_v14 main_v15 (addi : (⟨S850000, .i32⟩ : BufTy).Contents (Elt F) → (⟨S850000, .i32⟩ : BufTy).Contents (Elt F) → (⟨S850000, .i32⟩ : BufTy).Contents (Elt F)),
    ternary main_v13 main_v15 main_v3 main_v16 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v16 main_v17 (broadcastInDim S850000x1 ![0] bcast_S850000_S850000x1_0 : (⟨S850000, .i32⟩ : BufTy).Contents (Elt F) → (⟨S850000x1, .i32⟩ : BufTy).Contents (Elt F)),
    binary main_v11 main_v17 main_v18 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_2 (constantI S_ 32 0#32),
    unary main_c_2 main_v19 (broadcastInDim S850000 ![] bcast_S_S850000 : (⟨S_, .i32⟩ : BufTy).Contents (Elt F) → (⟨S850000, .i32⟩ : BufTy).Contents (Elt F)),
    binary main_v6 main_v19 main_v20 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v21 (broadcastInDim S850000 ![] bcast_S_S850000 : (⟨S_, .i32⟩ : BufTy).Contents (Elt F) → (⟨S850000, .i32⟩ : BufTy).Contents (Elt F)),
    binary main_v6 main_v21 main_v22 (addi : (⟨S850000, .i32⟩ : BufTy).Contents (Elt F) → (⟨S850000, .i32⟩ : BufTy).Contents (Elt F) → (⟨S850000, .i32⟩ : BufTy).Contents (Elt F)),
    ternary main_v20 main_v22 main_v6 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v23 main_v24 (broadcastInDim S850000x1 ![0] bcast_S850000_S850000x1_0 : (⟨S850000, .i32⟩ : BufTy).Contents (Elt F) → (⟨S850000x1, .i32⟩ : BufTy).Contents (Elt F)),
    binary main_v11 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v18 main_v25 main_v26 (mulf : (⟨S850000, .f32⟩ : BufTy).Contents (Elt F) → (⟨S850000, .f32⟩ : BufTy).Contents (Elt F) → (⟨S850000, .f32⟩ : BufTy).Contents (Elt F)) ]

/-- The next 23: the first dense product, its aggregation, the bias, the positive part. -/
abbrev opsLayer1 : List (HloOp τ sig (Elt F)) :=
  [ binary main_arg0 main_arg2 main_v27 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    nullary main_c_4 (constantI S_ 32 0#32),
    unary main_c_4 main_v28 (broadcastInDim S850000 ![] bcast_S_S850000 : (⟨S_, .i32⟩ : BufTy).Contents (Elt F) → (⟨S850000, .i32⟩ : BufTy).Contents (Elt F)),
    binary main_v3 main_v28 main_v29 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v30 (broadcastInDim S850000 ![] bcast_S_S850000 : (⟨S_, .i32⟩ : BufTy).Contents (Elt F) → (⟨S850000, .i32⟩ : BufTy).Contents (Elt F)),
    binary main_v3 main_v30 main_v31 (addi : (⟨S850000, .i32⟩ : BufTy).Contents (Elt F) → (⟨S850000, .i32⟩ : BufTy).Contents (Elt F) → (⟨S850000, .i32⟩ : BufTy).Contents (Elt F)),
    ternary main_v29 main_v31 main_v3 main_v32 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v32 main_v33 (broadcastInDim S850000x1 ![0] bcast_S850000_S850000x1_0 : (⟨S850000, .i32⟩ : BufTy).Contents (Elt F) → (⟨S850000x1, .i32⟩ : BufTy).Contents (Elt F)),
    binary main_v27 main_v33 main_v34 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v26 main_v35 (broadcastInDim S850000x1 ![0] bcast_S850000_S850000x1_0 : (⟨S850000, .f32⟩ : BufTy).Contents (Elt F) → (⟨S850000x1, .f32⟩ : BufTy).Contents (Elt F)),
    unary main_v35 main_v36 (broadcastInDim S850000x64 ![0, 1] bcast_S850000x1_S850000x64_0_1 : (⟨S850000x1, .f32⟩ : BufTy).Contents (Elt F) → (⟨S850000x64, .f32⟩ : BufTy).Contents (Elt F)),
    binary main_v34 main_v36 main_v37 (mulf : (⟨S850000x64, .f32⟩ : BufTy).Contents (Elt F) → (⟨S850000x64, .f32⟩ : BufTy).Contents (Elt F) → (⟨S850000x64, .f32⟩ : BufTy).Contents (Elt F)),
    nullary main_cst_6 (constant S_ .f32 0x00000000#32),
    unary main_cst_6 main_v38 (broadcastInDim S50000x64 ![] bcast_S_S50000x64 : (⟨S_, .f32⟩ : BufTy).Contents (Elt F) → (⟨S50000x64, .f32⟩ : BufTy).Contents (Elt F)),
    unary main_v6 main_v39 (broadcastInDim S850000x1 ![0] bcast_S850000_S850000x1_0 : (⟨S850000, .i32⟩ : BufTy).Contents (Elt F) → (⟨S850000x1, .i32⟩ : BufTy).Contents (Elt F)),
    ternary main_v38 main_v39 main_v37 main_v40 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg3 main_v41 (broadcastInDim S1x64 ![1] bcast_S64_S1x64_1 : (⟨S64, .f32⟩ : BufTy).Contents (Elt F) → (⟨S1x64, .f32⟩ : BufTy).Contents (Elt F)),
    unary main_v41 main_v42 (broadcastInDim S50000x64 ![0, 1] bcast_S1x64_S50000x64_0_1 : (⟨S1x64, .f32⟩ : BufTy).Contents (Elt F) → (⟨S50000x64, .f32⟩ : BufTy).Contents (Elt F)),
    binary main_v40 main_v42 main_v43 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v43) (TRef.of (T := ⟨S50000x64, .f32⟩) main_call0_v0) (TRef.of (T := ⟨S50000x64, .f32⟩) main_v44) maximumf ]

/-- The next 20: the second dense product, its aggregation, the bias. -/
abbrev opsLayer2 : List (HloOp τ sig (Elt F)) :=
  [ binary main_v44 main_arg4 main_v45 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)),
    nullary main_c_7 (constantI S_ 32 0#32),
    unary main_c_7 main_v46 (broadcastInDim S850000 ![] bcast_S_S850000 : (⟨S_, .i32⟩ : BufTy).Contents (Elt F) → (⟨S850000, .i32⟩ : BufTy).Contents (Elt F)),
    binary main_v3 main_v46 main_v47 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v48 (broadcastInDim S850000 ![] bcast_S_S850000 : (⟨S_, .i32⟩ : BufTy).Contents (Elt F) → (⟨S850000, .i32⟩ : BufTy).Contents (Elt F)),
    binary main_v3 main_v48 main_v49 (addi : (⟨S850000, .i32⟩ : BufTy).Contents (Elt F) → (⟨S850000, .i32⟩ : BufTy).Contents (Elt F) → (⟨S850000, .i32⟩ : BufTy).Contents (Elt F)),
    ternary main_v47 main_v49 main_v3 main_v50 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v50 main_v51 (broadcastInDim S850000x1 ![0] bcast_S850000_S850000x1_0 : (⟨S850000, .i32⟩ : BufTy).Contents (Elt F) → (⟨S850000x1, .i32⟩ : BufTy).Contents (Elt F)),
    binary main_v45 main_v51 main_v52 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v26 main_v53 (broadcastInDim S850000x1 ![0] bcast_S850000_S850000x1_0 : (⟨S850000, .f32⟩ : BufTy).Contents (Elt F) → (⟨S850000x1, .f32⟩ : BufTy).Contents (Elt F)),
    unary main_v53 main_v54 (broadcastInDim S850000x40 ![0, 1] bcast_S850000x1_S850000x40_0_1 : (⟨S850000x1, .f32⟩ : BufTy).Contents (Elt F) → (⟨S850000x40, .f32⟩ : BufTy).Contents (Elt F)),
    binary main_v52 main_v54 main_v55 (mulf : (⟨S850000x40, .f32⟩ : BufTy).Contents (Elt F) → (⟨S850000x40, .f32⟩ : BufTy).Contents (Elt F) → (⟨S850000x40, .f32⟩ : BufTy).Contents (Elt F)),
    nullary main_cst_9 (constant S_ .f32 0x00000000#32),
    unary main_cst_9 main_v56 (broadcastInDim S50000x40 ![] bcast_S_S50000x40 : (⟨S_, .f32⟩ : BufTy).Contents (Elt F) → (⟨S50000x40, .f32⟩ : BufTy).Contents (Elt F)),
    unary main_v6 main_v57 (broadcastInDim S850000x1 ![0] bcast_S850000_S850000x1_0 : (⟨S850000, .i32⟩ : BufTy).Contents (Elt F) → (⟨S850000x1, .i32⟩ : BufTy).Contents (Elt F)),
    ternary main_v56 main_v57 main_v55 main_v58 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    unary main_arg5 main_v59 (broadcastInDim S1x40 ![1] bcast_S40_S1x40_1 : (⟨S40, .f32⟩ : BufTy).Contents (Elt F) → (⟨S1x40, .f32⟩ : BufTy).Contents (Elt F)),
    unary main_v59 main_v60 (broadcastInDim S50000x40 ![0, 1] bcast_S1x40_S50000x40_0_1 : (⟨S1x40, .f32⟩ : BufTy).Contents (Elt F) → (⟨S50000x40, .f32⟩ : BufTy).Contents (Elt F)),
    binary main_v58 main_v60 main_v61 (addf : (⟨S50000x40, .f32⟩ : BufTy).Contents (Elt F) → (⟨S50000x40, .f32⟩ : BufTy).Contents (Elt F) → (⟨S50000x40, .f32⟩ : BufTy).Contents (Elt F)) ]

/-- The last 15: the row-wise log-softmax. -/
abbrev opsSoftmax : List (HloOp τ sig (Elt F)) :=
  [ TRef.nullary (TRef.of (T := ⟨S_, .f32⟩) main_call1_cst) (constant S_ .f32 0xFF800000#32),
    TRef.binary (TRef.of (T := ⟨S50000x40, .f32⟩) main_v61) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v61) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v62) subf ]

/-- The program's operation list is the four stretches one after the other. -/
theorem ops_split : (Cert.ReferenceIdeal.RunP.ops : List (HloOp τ sig (Elt F))) = opsEdges ++ (opsLayer1 ++ (opsLayer2 ++ opsSoftmax)) := rfl

variable (m : (ℓ : Loc nD τ sig) → Buf (Elt F) ℓ)

/-- The buffers after the first stretch. -/
def RA (c : Dev nD) : Valuation τ sig (Elt F) := after opsEdges (launchContents m c)
/-- The buffers after the first layer. -/
def RB (c : Dev nD) : Valuation τ sig (Elt F) := after opsLayer1 (RA m c)
/-- The buffers after the second layer's bias. -/
def RC (c : Dev nD) : Valuation τ sig (Elt F) := after opsLayer2 (RB m c)
/-- The buffers at the return. -/
def RD (c : Dev nD) : Valuation τ sig (Elt F) := after opsSoftmax (RC m c)

/-- The fold over the whole program is the four folds composed. -/
theorem after_ops (c : Dev nD) : after Cert.ReferenceIdeal.RunP.ops (launchContents m c) = RD m c := by
  rw [ops_split, after_append, after_append, after_append]
  rfl

end Cert.ReferenceIdeal.Stretches

end
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.RefChain.lean ====
/-
  The reference program's four stretches read back, each over what the previous boundary holds: the edge lists and
  the edge weights as the same functions of the edge list that the kernel program's host side computes; the first
  layer as the positive part of (aggregation of the dense product) plus the broadcast bias; the second layer as
  (aggregation of the dense product) plus the broadcast bias; and the row-wise log-softmax of that.
-/
import proofs.«154348_j75479755260510_1_alg».proof.Proof.RefStretches
import proofs.«154348_j75479755260510_1_alg».proof.Proof.HostFns
import proofs.«154348_j75479755260510_1_alg».proof.Proof.Gen.KernelIdeal
import proofs.«154348_j75479755260510_1_alg».proof.Proof.LibTypedRef

set_option maxRecDepth 16384

noncomputable section

namespace Cert.ReferenceIdeal.Chain

open Cert.ReferenceIdeal Cert.ReferenceIdeal.Gen Cert.ReferenceIdeal.Stretches
open Idealize.ShloMosaic Idealize.ShloMosaic.TcCoe Idealize.SL.Sem Idealize.ShloMosaic.StableHlo

variable {F : FTy → Type} [FloatOps F]
variable (m : (ℓ : Loc nD τ sig) → Buf (Elt F) ℓ)

/-! ## After the first stretch -/

theorem RA_src (c : Dev nD) : RA m c (Proc.devRef .tc main_v3) = Cert.KernelIdeal.HostFns.srcOf (m ((c.tc : Thread nD τ).loc main_arg1)) := by
  show after opsEdges (launchContents m c) (Proc.devRef .tc main_v3) = _
  after_results
  rfl

theorem RA_dst (c : Dev nD) : RA m c (Proc.devRef .tc main_v6) = Cert.KernelIdeal.HostFns.dstOf (m ((c.tc : Thread nD τ).loc main_arg1)) := by
  show after opsEdges (launchContents m c) (Proc.devRef .tc main_v6) = _
  after_results
  rfl

theorem RA_weight (c : Dev nD) : RA m c (Proc.devRef .tc main_v26)
    = Cert.KernelIdeal.HostFns.weightOf (Cert.KernelIdeal.HostFns.srcOf (m ((c.tc : Thread nD τ).loc main_arg1)))
        (Cert.KernelIdeal.HostFns.dstOf (m ((c.tc : Thread nD τ).loc main_arg1))) := by
  show after opsEdges (launchContents m c) (Proc.devRef .tc main_v26) = _
  after_results_simp
  unfold Cert.KernelIdeal.HostFns.weightOf Cert.KernelIdeal.HostFns.invSqrtDeg Cert.KernelIdeal.HostFns.startsOf Cert.KernelIdeal.HostFns.srcOf Cert.KernelIdeal.HostFns.dstOf
  rfl

theorem RA_arg0 (c : Dev nD) : RA m c (Proc.devRef .tc main_arg0) = m ((c.tc : Thread nD τ).loc main_arg0) := by
  show after opsEdges (launchContents m c) (Proc.devRef .tc main_arg0) = _
  after_results
theorem RA_arg2 (c : Dev nD) : RA m c (Proc.devRef .tc main_arg2) = m ((c.tc : Thread nD τ).loc main_arg2) := by
  show after opsEdges (launchContents m c) (Proc.devRef .tc main_arg2) = _
  after_results
theorem RA_arg3 (c : Dev nD) : RA m c (Proc.devRef .tc main_arg3) = m ((c.tc : Thread nD τ).loc main_arg3) := by
  show after opsEdges (launchContents m c) (Proc.devRef .tc main_arg3) = _
  after_results
theorem RA_arg4 (c : Dev nD) : RA m c (Proc.devRef .tc main_arg4) = m ((c.tc : Thread nD τ).loc main_arg4) := by
  show after opsEdges (launchContents m c) (Proc.devRef .tc main_arg4) = _
  after_results
theorem RA_arg5 (c : Dev nD) : RA m c (Proc.devRef .tc main_arg5) = m ((c.tc : Thread nD τ).loc main_arg5) := by
  show after opsEdges (launchContents m c) (Proc.devRef .tc main_arg5) = _
  after_results

/-! ## The first layer -/

theorem RB_layer (c : Dev nD) : RB m c (Proc.devRef .tc main_v44)
    = maximumf
        (addf (Cert.KernelIdeal.HostFns.aggregate64
            (Host.dotGeneral dot_S50000x256_S256x64_S50000x64_1_0_0_1_n_n none (RA m c (Proc.devRef .tc main_arg0)) (RA m c (Proc.devRef .tc main_arg2)))
            (RA m c (Proc.devRef .tc main_v3)) (RA m c (Proc.devRef .tc main_v6)) (RA m c (Proc.devRef .tc main_v26)))
          (broadcastInDim S50000x64 ![0, 1] bcast_S1x64_S50000x64_0_1 (broadcastInDim S1x64 ![1] bcast_S64_S1x64_1 (RA m c (Proc.devRef .tc main_arg3)))))
        (broadcastInDim S50000x64 ![] bcast_S_S50000x64 (constant S_ .f32 0x00000000#32)) := by
  show after opsLayer1 (RA m c) (Proc.devRef .tc main_v44) = _
  after_results_simp
  unfold Cert.KernelIdeal.HostFns.aggregate64 Cert.KernelIdeal.HostFns.startsOf
  rfl

theorem RB_keep_src (c : Dev nD) : RB m c (Proc.devRef .tc main_v3) = RA m c (Proc.devRef .tc main_v3) := by
  show after opsLayer1 (RA m c) (Proc.devRef .tc main_v3) = _
  after_results
theorem RB_keep_dst (c : Dev nD) : RB m c (Proc.devRef .tc main_v6) = RA m c (Proc.devRef .tc main_v6) := by
  show after opsLayer1 (RA m c) (Proc.devRef .tc main_v6) = _
  after_results
theorem RB_keep_weight (c : Dev nD) : RB m c (Proc.devRef .tc main_v26) = RA m c (Proc.devRef .tc main_v26) := by
  show after opsLayer1 (RA m c) (Proc.devRef .tc main_v26) = _
  after_results
theorem RB_keep_arg4 (c : Dev nD) : RB m c (Proc.devRef .tc main_arg4) = RA m c (Proc.devRef .tc main_arg4) := by
  show after opsLayer1 (RA m c) (Proc.devRef .tc main_arg4) = _
  after_results
theorem RB_keep_arg5 (c : Dev nD) : RB m c (Proc.devRef .tc main_arg5) = RA m c (Proc.devRef .tc main_arg5) := by
  show after opsLayer1 (RA m c) (Proc.devRef .tc main_arg5) = _
  after_results

/-! ## The second layer -/

theorem RC_layer (c : Dev nD) : RC m c (Proc.devRef .tc main_v61)
    = addf (Cert.KernelIdeal.HostFns.aggregate40
          (Host.dotGeneral dot_S50000x64_S64x40_S50000x40_1_0_0_1_n_n none (RB m c (Proc.devRef .tc main_v44)) (RB m c (Proc.devRef .tc main_arg4)))
          (RB m c (Proc.devRef .tc main_v3)) (RB m c (Proc.devRef .tc main_v6)) (RB m c (Proc.devRef .tc main_v26)))
        (broadcastInDim S50000x40 ![0, 1] bcast_S1x40_S50000x40_0_1 (broadcastInDim S1x40 ![1] bcast_S40_S1x40_1 (RB m c (Proc.devRef .tc main_arg5)))) := by
  show after opsLayer2 (RB m c) (Proc.devRef .tc main_v61) = _
  after_results_simp
  unfold Cert.KernelIdeal.HostFns.aggregate40 Cert.KernelIdeal.HostFns.startsOf
  rfl

/-! ## The log-softmax -/

/-- The row-wise log-softmax as the reference spells it: each entry minus its row's maximum (taken from −∞, and once
    more against −∞), minus the logarithm of the row's sum of exponentials of those differences. -/
def hostLogSoftmax (z : (⟨S50000x40, .f32⟩ : BufTy).Contents (Elt F)) : (⟨S50000x40, .f32⟩ : BufTy).Contents (Elt F) :=
  subf
    (subf z (broadcastInDim S50000x40 ![0, 1] bcast_S50000x1_S50000x40_0_1 (broadcastInDim S50000x1 ![0] bcast_S50000_S50000x1_0
      (maximumf (broadcastInDim S50000 ![] bcast_S_S50000 (constant S_ .f32 0xFF800000#32))
        (Host.reduce FloatOps.maximumf z (constant S_ .f32 0xFF800000#32) reducesTo_S50000x40_S50000_d1 h_S_)))))
    (broadcastInDim S50000x40 ![0, 1] bcast_S50000x1_S50000x40_0_1 (Host.log (broadcastInDim S50000x1 ![0] bcast_S50000_S50000x1_0
      (Host.reduceAdd (Host.exp
          (subf z (broadcastInDim S50000x40 ![0, 1] bcast_S50000x1_S50000x40_0_1 (broadcastInDim S50000x1 ![0] bcast_S50000_S50000x1_0
            (maximumf (broadcastInDim S50000 ![] bcast_S_S50000 (constant S_ .f32 0xFF800000#32))
              (Host.reduce FloatOps.maximumf z (constant S_ .f32 0xFF800000#32) reducesTo_S50000x40_S50000_d1 h_S_))))))
        (constant S_ .f32 0x00000000#32) reducesTo_S50000x40_S50000_d1 h_S_))))

/-- One step of reading a fold of nullary, unary, binary and ternary operations at a buffer: the last operation's
    function at its own result buffer, what was there before at any other. -/
local macro "read_step" : tactic =>
  `(tactic| (first
               | rw [nullary_result] | rw [unary_result] | rw [binary_result] | rw [ternary_result]
               | (rw [nullary_result_ne]; rotate_left; decide)
               | (rw [unary_result_ne]; rotate_left; decide)
               | (rw [binary_result_ne]; rotate_left; decide)
               | (rw [ternary_result_ne]; rotate_left; decide)))

theorem RD_out (c : Dev nD) : RD m c (Proc.devRef .tc main_v62) = hostLogSoftmax (RC m c (Proc.devRef .tc main_v61)) := by
  show after opsSoftmax (RC m c) (Proc.devRef .tc main_v62) = _
  simp only [after_cons, after_nil]
  repeat read_step
  simp only [TRef.ofBuf_toBuf, TRef.toBuf_ofBuf]
  unfold hostLogSoftmax
  rfl

/-! ## The whole program -/

/-- The reference's result as one function of its six argument arrays. -/
def refOut (x : (⟨S50000x256, .f32⟩ : BufTy).Contents (Elt F)) (e : (⟨S2x800000, .i32⟩ : BufTy).Contents (Elt F))
    (w1 : (⟨S256x64, .f32⟩ : BufTy).Contents (Elt F)) (b1 : (⟨S64, .f32⟩ : BufTy).Contents (Elt F))
    (w2 : (⟨S64x40, .f32⟩ : BufTy).Contents (Elt F)) (b2 : (⟨S40, .f32⟩ : BufTy).Contents (Elt F)) :
    (⟨S50000x40, .f32⟩ : BufTy).Contents (Elt F) :=
  hostLogSoftmax
    (addf (Cert.KernelIdeal.HostFns.aggregate40
          (Host.dotGeneral dot_S50000x64_S64x40_S50000x40_1_0_0_1_n_n none
            (maximumf
              (addf (Cert.KernelIdeal.HostFns.aggregate64
                  (Host.dotGeneral dot_S50000x256_S256x64_S50000x64_1_0_0_1_n_n none x w1)
                  (Cert.KernelIdeal.HostFns.srcOf e) (Cert.KernelIdeal.HostFns.dstOf e)
                  (Cert.KernelIdeal.HostFns.weightOf (Cert.KernelIdeal.HostFns.srcOf e) (Cert.KernelIdeal.HostFns.dstOf e)))
                (broadcastInDim S50000x64 ![0, 1] bcast_S1x64_S50000x64_0_1 (broadcastInDim S1x64 ![1] bcast_S64_S1x64_1 b1)))
              (broadcastInDim S50000x64 ![] bcast_S_S50000x64 (constant S_ .f32 0x00000000#32)))
            w2)
          (Cert.KernelIdeal.HostFns.srcOf e) (Cert.KernelIdeal.HostFns.dstOf e)
          (Cert.KernelIdeal.HostFns.weightOf (Cert.KernelIdeal.HostFns.srcOf e) (Cert.KernelIdeal.HostFns.dstOf e)))
      (broadcastInDim S50000x40 ![0, 1] bcast_S1x40_S50000x40_0_1 (broadcastInDim S1x40 ![1] bcast_S40_S1x40_1 b2)))

/-- The fold over the whole program, at the result buffer, is that function of the launch contents of the arguments. -/
theorem ref_result (c : Dev nD) :
    after Cert.ReferenceIdeal.RunP.ops (launchContents m c) (Proc.devRef .tc main_v62)
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [after_ops, RD_out, RC_layer, RB_layer, RB_keep_src, RB_keep_dst, RB_keep_weight, RB_keep_arg4, RB_keep_arg5,
    RA_src, RA_dst, RA_weight, RA_arg0, RA_arg2, RA_arg3, RA_arg4, RA_arg5]
  rfl

end Cert.ReferenceIdeal.Chain

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.RefDense.lean ====
/-
  The host's plain matrix product is the product function entry by entry: over the extended reals the dot_general
  of an [M, K] operand with a [K, N] operand, contracted on the shared axis, is at (r, c) the sum over k of
  x(r, k) · w(k, c).
-/
import proofs.«154348_j75479755260510_1_alg».proof.Proof.Spec
import proofs.«154348_j75479755260510_1_alg».proof.Proof.LibPlainDot

noncomputable section

namespace Cert.Gcn.RefStage

open Idealize.ShloMosaic Idealize.ShloMosaic.ValueIdx

/-- The host's product with any record that is the plain one is `Cert.Gcn.dense`. -/
theorem hostDense_eq {M K N : ℕ} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) :
    Host.dotGeneral d none x w = Cert.Gcn.dense x w := by
  funext i
  obtain ⟨r, c, rfl⟩ : ∃ (r : Fin M) (c : Fin N), i = ix2 r c := ⟨i 0, i 1, eq_ix2 i⟩
  rw [Cert.Gcn.dense_apply]
  exact Cert.PlainDot.dotGeneral_apply d hd none .single x w r c

end Cert.Gcn.RefStage

end
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.RefBiasRelu.lean ====
/-
  The host's spelling of "add a row bias, then take the positive part".

  The host adds to an [M, N] array a vector of N entries that it first lays out as a [1, N] row and then repeats
  down the M rows, and takes the entrywise maximum with the splat of the constant zero. Entry (r, c) of the result is
  therefore max (a(r, c) + b(c)) 0. The whole-array function `Cert.Gcn.biasRelu` of the same array and of the vector
  RESHAPED to a [1, N] row has the same entry, because entry (0, c) of that row is b(c).
-/
import Idealize.ShloMosaic.Lib.Pipeline.Value
import Idealize.ShloMosaic.Lib.ValueIdx
import Idealize.ShloMosaic.PureOps.Ideal.Laws
import proofs.«154348_j75479755260510_1_alg».proof.Proof.Spec
import proofs.«154348_j75479755260510_1_alg».proof.Proof.LibBroadcasts
import proofs.«154348_j75479755260510_1_alg».proof.Proof.LibRowVector

noncomputable section

namespace Cert.Gcn.RefStage

open Idealize.ShloMosaic Idealize.ShloMosaic.ValueIdx

/-- The index of a [1, N] row's entry (0, c), with its leading coordinate dropped, is the index c of a vector. -/
theorem tail_ix2 {N : ℕ} (c : Fin N) :
    (fun a : Fin 1 => (ix2 (0 : Fin 1) c) a.succ) = (ix1 c : (⟨1, ![N]⟩ : Shape).Idx) := by
  funext a
  match a with
  | ⟨0, _⟩ => rfl

/-- The host's maximum (a + the bias laid as a row and repeated down the rows) (splat of zero) is the positive part
    of the array plus the reshaped bias row. -/
theorem hostBiasRelu_eq {M N : ℕ} (a : FVec Ideal ⟨2, ![M, N]⟩ .f32) (b : FVec Ideal ⟨1, ![N]⟩ .f32)
    (h0 : (⟨1, ![N]⟩ : Shape).BroadcastsInDim ⟨2, ![1, N]⟩ ![1]) (h1 : (⟨2, ![1, N]⟩ : Shape).BroadcastsInDim ⟨2, ![M, N]⟩ ![0, 1])
    (hz : (⟨0, ![]⟩ : Shape).BroadcastsInDim ⟨2, ![M, N]⟩ ![]) (hs : (⟨1, ![N]⟩ : Shape).ShapeCasts ⟨2, ![1, N]⟩) :
    maximumf (addf a (broadcastInDim ⟨2, ![M, N]⟩ ![0, 1] h1 (broadcastInDim ⟨2, ![1, N]⟩ ![1] h0 b)))
        (broadcastInDim ⟨2, ![M, N]⟩ ![] hz (constant (F := Ideal) ⟨0, ![]⟩ .f32 0x00000000#32))
      = Cert.Gcn.biasRelu a (shapeCast ⟨2, ![1, N]⟩ b hs) := by
  funext i
  obtain ⟨r, c, rfl⟩ : ∃ (r : Fin M) (c : Fin N), i = ix2 r c := ⟨i 0, i 1, eq_ix2 i⟩
  rw [Cert.Gcn.biasRelu_apply, maximumf_apply, addf_apply, Cert.Broadcasts.downRows_apply, Cert.Broadcasts.splat_apply,
    constant_apply, Ideal.ofBits_zero_f32, Cert.RowVector.reshape_apply, tail_ix2]

end Cert.Gcn.RefStage

end
-- ==== Proof.RefLogSoftmax.lean ====
/-
  The host's bias + row-wise log-softmax, read entry by entry over the extended reals.

  The host computes, from a matrix a : [M, N] and a vector b : [N]:
    z = a + (b laid as a row and repeated down the rows),
    m = max (−∞, the maximum of each row of z taken from −∞),
    s = z − (m laid as a column and repeated along the columns),
    t = the sum of each row of exp s taken from 0,
    result = s − (log t laid as a column and repeated along the columns).
  Entry (r, c) of the result is (z(r, c) − max_j z(r, j)) − log (Σ_j exp (z(r, j) − max_j z(r, j))), with
  z(r, j) = a(r, j) + b(j): the row-wise log-softmax of the matrix plus the vector reshaped to a row.

  The steps: the maximum of −∞ and y is y; a maximum over one axis from −∞ is the fold of max over that axis's
  coordinates from the bottom element; a sum over one axis from 0 is the finite sum over that axis's coordinates;
  a column repeated along the columns reads, at (r, c), the column's entry of row r; a row repeated down the rows
  reads, at (r, c), the row's entry of column c.
-/
import Idealize.ShloMosaic.Lib.ValueIdx
import Idealize.ShloMosaic.Lib.Pipeline.Value
import Idealize.ShloMosaic.PureOps.Reduce
import Idealize.ShloMosaic.PureOps.Ideal.Laws
import proofs.«154348_j75479755260510_1_alg».proof.Proof.Spec
import proofs.«154348_j75479755260510_1_alg».proof.Proof.LibBroadcasts
import proofs.«154348_j75479755260510_1_alg».proof.Proof.LibRowVector

noncomputable section

namespace Cert.Gcn.RefStage

open Idealize.ShloMosaic Idealize.ShloMosaic.ValueIdx

variable {M N : ℕ}

/-- A shape fact for a reduction into a vector is also one for a reduction into a non-scalar. -/
theorem reduces_of_reducesTo (hred : (⟨2, ![M, N]⟩ : Shape).ReducesTo [1] ⟨1, ![M]⟩) :
    (⟨2, ![M, N]⟩ : Shape).Reduces [1] ⟨1, ![M]⟩ := by
  obtain ⟨h, hsz⟩ := hred
  exact ⟨h, Nat.one_pos, hsz⟩

/-- The reduced index r with the column k put back is (r, k). -/
theorem lift_ix2 (h : (⟨2, ![M, N]⟩ : Shape).Reduces [1] ⟨1, ![M]⟩) (r : Fin M)
    (k : Fin ((⟨2, ![M, N]⟩ : Shape).size 1)) : h.lift (ix1 r) k = ix2 r (⟨k.val, k.isLt⟩ : Fin N) := by
  funext c; apply Fin.ext
  fin_cases c <;> rfl

/-- A column repeated along the columns reads, at (r, c), the column's entry of row r. -/
theorem acrossColumns_apply {α : Type} (v : (⟨2, ![M, 1]⟩ : Shape).Idx → α)
    (h1 : (⟨2, ![M, 1]⟩ : Shape).BroadcastsInDim ⟨2, ![M, N]⟩ ![0, 1]) (r : Fin M) (c : Fin N) :
    broadcastInDim ⟨2, ![M, N]⟩ ![0, 1] h1 v (ix2 r c) = v (ix2 r (0 : Fin 1)) := by
  refine broadcastInDim_apply ![0, 1] h1 v (ix2 r c) (ix2 r (0 : Fin 1)) (fun q => ?_)
  match q with
  | ⟨0, _⟩ =>
    show r.val = if M = 1 then 0 else r.val
    by_cases ha : M = 1
    · rw [if_pos ha]; have := r.isLt; omega
    · rw [if_neg ha]
  | ⟨1, _⟩ =>
    show (0 : ℕ) = if (1 : ℕ) = 1 then 0 else c.val
    rw [if_pos rfl]

/-- The maximum of −∞ and each row's maximum taken from −∞, at row r: the fold of max over the row from the bottom
    element. -/
theorem hostRowMax_apply (z : FVec Ideal ⟨2, ![M, N]⟩ .f32)
    (hzM : (⟨0, ![]⟩ : Shape).BroadcastsInDim ⟨1, ![M]⟩ ![]) (hred : (⟨2, ![M, N]⟩ : Shape).ReducesTo [1] ⟨1, ![M]⟩)
    (hS : 0 < (⟨0, ![]⟩ : Shape).numel) (r : Fin M) :
    maximumf (broadcastInDim ⟨1, ![M]⟩ ![] hzM (constant (F := Ideal) ⟨0, ![]⟩ .f32 0xFF800000#32))
        (Host.reduce FloatOps.maximumf z (constant (F := Ideal) ⟨0, ![]⟩ .f32 0xFF800000#32) hred hS) (ix1 r)
      = (Finset.univ : Finset (Fin N)).fold max ⊥ (fun j => z (ix2 r j)) := by
  have hR := reduces_of_reducesTo hred
  rw [maximumf_apply, Cert.Broadcasts.splat_apply, constant_apply, Cert.Gcn.ofBits_neg_inf_f32, max_eq_right bot_le,
    Host.reduce_eq_fold_single FloatOps.maximumf z _ hred hR hS, constant_apply, Cert.Gcn.ofBits_neg_inf_f32]
  have hf : (z ∘ hR.lift (ix1 r)) = fun k : Fin N => z (ix2 r k) := funext fun k => congrArg z (lift_ix2 hR r k)
  rw [hf]
  rfl

/-- Each row's sum taken from 0, at row r: the finite sum over the row. -/
theorem hostRowSum_apply (e : FVec Ideal ⟨2, ![M, N]⟩ .f32) (hred : (⟨2, ![M, N]⟩ : Shape).ReducesTo [1] ⟨1, ![M]⟩)
    (hS : 0 < (⟨0, ![]⟩ : Shape).numel) (r : Fin M) :
    Host.reduceAdd e (constant (F := Ideal) ⟨0, ![]⟩ .f32 0x00000000#32) hred hS (ix1 r) = ∑ j : Fin N, e (ix2 r j) := by
  have hR := reduces_of_reducesTo hred
  show Ideal.hostReduceAdd hred e (Ideal.ofBits .f32 0x00000000#32) (ix1 r) = _
  rw [Ideal.hostReduceAdd_single hred hR, Ideal.ofBits_zero_f32, zero_add]
  exact Finset.sum_congr rfl fun k _ => congrArg e (lift_ix2 hR r k)

/-- A matrix minus a vector laid as a column and repeated along the columns, at (r, c). -/
theorem subColumn_apply (z : FVec Ideal ⟨2, ![M, N]⟩ .f32) (m : FVec Ideal ⟨1, ![M]⟩ .f32)
    (hc0 : (⟨1, ![M]⟩ : Shape).BroadcastsInDim ⟨2, ![M, 1]⟩ ![0])
    (hc1 : (⟨2, ![M, 1]⟩ : Shape).BroadcastsInDim ⟨2, ![M, N]⟩ ![0, 1]) (r : Fin M) (c : Fin N) :
    subf z (broadcastInDim ⟨2, ![M, N]⟩ ![0, 1] hc1 (broadcastInDim ⟨2, ![M, 1]⟩ ![0] hc0 m)) (ix2 r c)
      = z (ix2 r c) - m (ix1 r) := by
  rw [subf_apply, Cert.Broadcasts.alongColumns_apply]

/-- A matrix plus a vector laid as a row and repeated down the rows, at (r, c): the matrix's entry plus entry c of the
    vector, which is entry (0, c) of the vector reshaped to a row. -/
theorem addRow_apply (a : FVec Ideal ⟨2, ![M, N]⟩ .f32) (b : FVec Ideal ⟨1, ![N]⟩ .f32)
    (h0 : (⟨1, ![N]⟩ : Shape).BroadcastsInDim ⟨2, ![1, N]⟩ ![1])
    (h1 : (⟨2, ![1, N]⟩ : Shape).BroadcastsInDim ⟨2, ![M, N]⟩ ![0, 1])
    (hs : (⟨1, ![N]⟩ : Shape).ShapeCasts ⟨2, ![1, N]⟩) (r : Fin M) (c : Fin N) :
    addf a (broadcastInDim ⟨2, ![M, N]⟩ ![0, 1] h1 (broadcastInDim ⟨2, ![1, N]⟩ ![1] h0 b)) (ix2 r c)
      = Cert.Gcn.shifted a (shapeCast ⟨2, ![1, N]⟩ b hs) r c := by
  rw [addf_apply, Cert.Broadcasts.downRows_apply]
  unfold Cert.Gcn.shifted
  rw [Cert.RowVector.reshape_apply]
  refine congrArg (fun i => a (ix2 r c) + b i) (funext fun q => ?_)
  match q with
  | ⟨0, _⟩ => rfl

/-- The host's bias + log-softmax is the row-wise log-softmax of the matrix plus the vector reshaped to a row. -/
theorem hostBiasLogSoftmax_aux (a : FVec Ideal ⟨2, ![M, N]⟩ .f32) (b : FVec Ideal ⟨1, ![N]⟩ .f32)
    (h0 : (⟨1, ![N]⟩ : Shape).BroadcastsInDim ⟨2, ![1, N]⟩ ![1]) (h1 : (⟨2, ![1, N]⟩ : Shape).BroadcastsInDim ⟨2, ![M, N]⟩ ![0, 1])
    (hzM : (⟨0, ![]⟩ : Shape).BroadcastsInDim ⟨1, ![M]⟩ ![]) (hc0 : (⟨1, ![M]⟩ : Shape).BroadcastsInDim ⟨2, ![M, 1]⟩ ![0])
    (hc1 : (⟨2, ![M, 1]⟩ : Shape).BroadcastsInDim ⟨2, ![M, N]⟩ ![0, 1]) (hred : (⟨2, ![M, N]⟩ : Shape).ReducesTo [1] ⟨1, ![M]⟩)
    (hS : 0 < (⟨0, ![]⟩ : Shape).numel) (hs : (⟨1, ![N]⟩ : Shape).ShapeCasts ⟨2, ![1, N]⟩) :
    let z := addf a (broadcastInDim ⟨2, ![M, N]⟩ ![0, 1] h1 (broadcastInDim ⟨2, ![1, N]⟩ ![1] h0 b))
    let m := maximumf (broadcastInDim ⟨1, ![M]⟩ ![] hzM (constant (F := Ideal) ⟨0, ![]⟩ .f32 0xFF800000#32))
               (Host.reduce FloatOps.maximumf z (constant (F := Ideal) ⟨0, ![]⟩ .f32 0xFF800000#32) hred hS)
    let s := subf z (broadcastInDim ⟨2, ![M, N]⟩ ![0, 1] hc1 (broadcastInDim ⟨2, ![M, 1]⟩ ![0] hc0 m))
    let t := Host.reduceAdd (Host.exp s) (constant (F := Ideal) ⟨0, ![]⟩ .f32 0x00000000#32) hred hS
    subf s (broadcastInDim ⟨2, ![M, N]⟩ ![0, 1] hc1 (Host.log (broadcastInDim ⟨2, ![M, 1]⟩ ![0] hc0 t)))
      = Cert.Gcn.biasLogSoftmax a (shapeCast ⟨2, ![1, N]⟩ b hs) := by
  intro z m s t
  funext i
  obtain ⟨r, c, rfl⟩ : ∃ (r : Fin M) (c : Fin N), i = ix2 r c := ⟨i 0, i 1, eq_ix2 i⟩
  have hz : ∀ k : Fin N, z (ix2 r k) = Cert.Gcn.shifted a (shapeCast ⟨2, ![1, N]⟩ b hs) r k :=
    fun k => addRow_apply a b h0 h1 hs r k
  have hm : m (ix1 r) = Cert.Gcn.rowMax a (shapeCast ⟨2, ![1, N]⟩ b hs) r := by
    refine (hostRowMax_apply z hzM hred hS r).trans ?_
    unfold Cert.Gcn.rowMax
    exact congrArg (fun f => Finset.fold max ⊥ f (Finset.univ : Finset (Fin N))) (funext hz)
  have hsk : ∀ k : Fin N, s (ix2 r k)
      = Cert.Gcn.shifted a (shapeCast ⟨2, ![1, N]⟩ b hs) r k - Cert.Gcn.rowMax a (shapeCast ⟨2, ![1, N]⟩ b hs) r :=
    fun k => by rw [← hz k, ← hm]; exact subColumn_apply z m hc0 hc1 r k
  have ht : t (ix1 r) = Cert.Gcn.rowExpSum a (shapeCast ⟨2, ![1, N]⟩ b hs) r := by
    refine (hostRowSum_apply (Host.exp s) hred hS r).trans ?_
    unfold Cert.Gcn.rowExpSum
    refine Finset.sum_congr rfl fun k _ => ?_
    show Ideal.exp (s (ix2 r k)) = _
    rw [hsk k]
  rw [Cert.Gcn.biasLogSoftmax_apply, subf_apply, hsk c, acrossColumns_apply]
  show _ - Ideal.log (broadcastInDim ⟨2, ![M, 1]⟩ ![0] hc0 t (ix2 r (0 : Fin 1))) = _
  rw [Cert.Broadcasts.column_apply, ht]

/-- The same with every intermediate array written out where it is used: the left side is the host's operations
    applied to the matrix and the vector, as one term. -/
theorem hostBiasLogSoftmax_eq (a : FVec Ideal ⟨2, ![M, N]⟩ .f32) (b : FVec Ideal ⟨1, ![N]⟩ .f32)
    (h0 : (⟨1, ![N]⟩ : Shape).BroadcastsInDim ⟨2, ![1, N]⟩ ![1]) (h1 : (⟨2, ![1, N]⟩ : Shape).BroadcastsInDim ⟨2, ![M, N]⟩ ![0, 1])
    (hzM : (⟨0, ![]⟩ : Shape).BroadcastsInDim ⟨1, ![M]⟩ ![]) (hc0 : (⟨1, ![M]⟩ : Shape).BroadcastsInDim ⟨2, ![M, 1]⟩ ![0])
    (hc1 : (⟨2, ![M, 1]⟩ : Shape).BroadcastsInDim ⟨2, ![M, N]⟩ ![0, 1]) (hred : (⟨2, ![M, N]⟩ : Shape).ReducesTo [1] ⟨1, ![M]⟩)
    (hS : 0 < (⟨0, ![]⟩ : Shape).numel) (hs : (⟨1, ![N]⟩ : Shape).ShapeCasts ⟨2, ![1, N]⟩) :
    subf
      (subf (addf a (broadcastInDim ⟨2, ![M, N]⟩ ![0, 1] h1 (broadcastInDim ⟨2, ![1, N]⟩ ![1] h0 b)))
        (broadcastInDim ⟨2, ![M, N]⟩ ![0, 1] hc1 (broadcastInDim ⟨2, ![M, 1]⟩ ![0] hc0
          (maximumf (broadcastInDim ⟨1, ![M]⟩ ![] hzM (constant (F := Ideal) ⟨0, ![]⟩ .f32 0xFF800000#32))
          (Host.reduce FloatOps.maximumf (addf a (broadcastInDim ⟨2, ![M, N]⟩ ![0, 1] h1 (broadcastInDim ⟨2, ![1, N]⟩ ![1] h0 b)))
            (constant (F := Ideal) ⟨0, ![]⟩ .f32 0xFF800000#32) hred hS)))))
      (broadcastInDim ⟨2, ![M, N]⟩ ![0, 1] hc1 (Host.log (broadcastInDim ⟨2, ![M, 1]⟩ ![0] hc0
      (Host.reduceAdd (Host.exp
      (subf (addf a (broadcastInDim ⟨2, ![M, N]⟩ ![0, 1] h1 (broadcastInDim ⟨2, ![1, N]⟩ ![1] h0 b)))
        (broadcastInDim ⟨2, ![M, N]⟩ ![0, 1] hc1 (broadcastInDim ⟨2, ![M, 1]⟩ ![0] hc0
          (maximumf (broadcastInDim ⟨1, ![M]⟩ ![] hzM (constant (F := Ideal) ⟨0, ![]⟩ .f32 0xFF800000#32))
          (Host.reduce FloatOps.maximumf (addf a (broadcastInDim ⟨2, ![M, N]⟩ ![0, 1] h1 (broadcastInDim ⟨2, ![1, N]⟩ ![1] h0 b)))
            (constant (F := Ideal) ⟨0, ![]⟩ .f32 0xFF800000#32) hred hS))))))
      (constant (F := Ideal) ⟨0, ![]⟩ .f32 0x00000000#32) hred hS))))
      = Cert.Gcn.biasLogSoftmax a (shapeCast ⟨2, ![1, N]⟩ b hs) :=
  hostBiasLogSoftmax_aux a b h0 h1 hzM hc0 hc1 hred hS hs

/-- The same with the intermediate arrays named inside the left side. -/
theorem hostBiasLogSoftmax_eq_let (a : FVec Ideal ⟨2, ![M, N]⟩ .f32) (b : FVec Ideal ⟨1, ![N]⟩ .f32)
    (h0 : (⟨1, ![N]⟩ : Shape).BroadcastsInDim ⟨2, ![1, N]⟩ ![1]) (h1 : (⟨2, ![1, N]⟩ : Shape).BroadcastsInDim ⟨2, ![M, N]⟩ ![0, 1])
    (hzM : (⟨0, ![]⟩ : Shape).BroadcastsInDim ⟨1, ![M]⟩ ![]) (hc0 : (⟨1, ![M]⟩ : Shape).BroadcastsInDim ⟨2, ![M, 1]⟩ ![0])
    (hc1 : (⟨2, ![M, 1]⟩ : Shape).BroadcastsInDim ⟨2, ![M, N]⟩ ![0, 1]) (hred : (⟨2, ![M, N]⟩ : Shape).ReducesTo [1] ⟨1, ![M]⟩)
    (hS : 0 < (⟨0, ![]⟩ : Shape).numel) (hs : (⟨1, ![N]⟩ : Shape).ShapeCasts ⟨2, ![1, N]⟩) :
    (let z := addf a (broadcastInDim ⟨2, ![M, N]⟩ ![0, 1] h1 (broadcastInDim ⟨2, ![1, N]⟩ ![1] h0 b))
     let m := maximumf (broadcastInDim ⟨1, ![M]⟩ ![] hzM (constant (F := Ideal) ⟨0, ![]⟩ .f32 0xFF800000#32))
                (Host.reduce FloatOps.maximumf z (constant (F := Ideal) ⟨0, ![]⟩ .f32 0xFF800000#32) hred hS)
     let s := subf z (broadcastInDim ⟨2, ![M, N]⟩ ![0, 1] hc1 (broadcastInDim ⟨2, ![M, 1]⟩ ![0] hc0 m))
     let t := Host.reduceAdd (Host.exp s) (constant (F := Ideal) ⟨0, ![]⟩ .f32 0x00000000#32) hred hS
     subf s (broadcastInDim ⟨2, ![M, N]⟩ ![0, 1] hc1 (Host.log (broadcastInDim ⟨2, ![M, 1]⟩ ![0] hc0 t))))
      = Cert.Gcn.biasLogSoftmax a (shapeCast ⟨2, ![1, N]⟩ b hs) :=
  hostBiasLogSoftmax_aux a b h0 h1 hzM hc0 hc1 hred hS hs

end Cert.Gcn.RefStage

end
-- ==== Proof.Bridge.lean ====
/-
  The two programs compute one function. The reference's composed output applies, layer by layer, the host's dense
  product, the broadcast bias with the positive part, and the broadcast bias with the row-wise log-softmax; the kernel
  program's output applies the entry-by-entry forms of the same three functions, with each bias reshaped to a row.
  Each host form is its entry-by-entry form; the aggregations between them are literally the same host operations.
-/
import proofs.«154348_j75479755260510_1_alg».proof.Proof.KernelValue
import proofs.«154348_j75479755260510_1_alg».proof.Proof.RefChain
import proofs.«154348_j75479755260510_1_alg».proof.Proof.RefDense
import proofs.«154348_j75479755260510_1_alg».proof.Proof.RefBiasRelu
import proofs.«154348_j75479755260510_1_alg».proof.Proof.RefLogSoftmax

set_option maxRecDepth 16384

noncomputable section

namespace Cert.Bridge

open Cert.ReferenceIdeal Cert.ReferenceIdeal.Gen
open Idealize.ShloMosaic Idealize.SL.Sem
open Cert.KernelIdeal.HostFns (aggregate64 aggregate40 srcOf dstOf weightOf)

/-- The reference's output is the kernel program's, as functions of the six argument arrays over the extended reals. -/
theorem refOut_eq_kernelOut (x : (⟨S50000x256, .f32⟩ : BufTy).Contents (Elt Ideal)) (e : (⟨S2x800000, .i32⟩ : BufTy).Contents (Elt Ideal))
    (w1 : (⟨S256x64, .f32⟩ : BufTy).Contents (Elt Ideal)) (b1 : (⟨S64, .f32⟩ : BufTy).Contents (Elt Ideal))
    (w2 : (⟨S64x40, .f32⟩ : BufTy).Contents (Elt Ideal)) (b2 : (⟨S40, .f32⟩ : BufTy).Contents (Elt Ideal)) :
    Cert.ReferenceIdeal.Chain.refOut x e w1 b1 w2 b2 = Cert.KernelIdeal.Chain.kernelOut x e w1 b1 w2 b2 := by
  -- the first dense product under the first aggregation
  have e1 : aggregate64 (Host.dotGeneral (φ₁ := .f32) (φ₂ := .f32) dot_S50000x256_S256x64_S50000x64_1_0_0_1_n_n none x w1) (srcOf e) (dstOf e) (weightOf (srcOf e) (dstOf e))
      = aggregate64 (Cert.Gcn.dense (M := 50000) (K := 256) (N := 64) x w1) (srcOf e) (dstOf e) (weightOf (srcOf e) (dstOf e)) :=
    congrArg (fun h => aggregate64 h (srcOf e) (dstOf e) (weightOf (srcOf e) (dstOf e)))
      (Cert.Gcn.RefStage.hostDense_eq (M := 50000) (K := 256) (N := 64) dot_S50000x256_S256x64_S50000x64_1_0_0_1_n_n rfl x w1)
  -- the first bias and the positive part
  have e2 : maximumf
        (addf (aggregate64 (Host.dotGeneral (φ₁ := .f32) (φ₂ := .f32) dot_S50000x256_S256x64_S50000x64_1_0_0_1_n_n none x w1) (srcOf e) (dstOf e) (weightOf (srcOf e) (dstOf e)))
          (broadcastInDim S50000x64 ![0, 1] bcast_S1x64_S50000x64_0_1 (broadcastInDim S1x64 ![1] bcast_S64_S1x64_1 b1)))
        (broadcastInDim S50000x64 ![] bcast_S_S50000x64 (constant (F := Ideal) S_ .f32 0x00000000#32))
      = Cert.Gcn.biasRelu (M := 50000) (N := 64)
          (aggregate64 (Cert.Gcn.dense (M := 50000) (K := 256) (N := 64) x w1) (srcOf e) (dstOf e) (weightOf (srcOf e) (dstOf e)))
          (shapeCast S1x64 b1 Cert.KernelIdeal.Facts₀.shapeCasts_S64_S1x64) := by
    rw [e1]
    exact Cert.Gcn.RefStage.hostBiasRelu_eq (M := 50000) (N := 64) _ b1 bcast_S64_S1x64_1 bcast_S1x64_S50000x64_0_1 bcast_S_S50000x64 _
  -- the second dense product under the second aggregation
  have e3 : aggregate40 (Host.dotGeneral (φ₁ := .f32) (φ₂ := .f32) dot_S50000x64_S64x40_S50000x40_1_0_0_1_n_n none
        (maximumf
          (addf (aggregate64 (Host.dotGeneral (φ₁ := .f32) (φ₂ := .f32) dot_S50000x256_S256x64_S50000x64_1_0_0_1_n_n none x w1) (srcOf e) (dstOf e) (weightOf (srcOf e) (dstOf e)))
            (broadcastInDim S50000x64 ![0, 1] bcast_S1x64_S50000x64_0_1 (broadcastInDim S1x64 ![1] bcast_S64_S1x64_1 b1)))
          (broadcastInDim S50000x64 ![] bcast_S_S50000x64 (constant (F := Ideal) S_ .f32 0x00000000#32))) w2)
        (srcOf e) (dstOf e) (weightOf (srcOf e) (dstOf e))
      = aggregate40 (Cert.Gcn.dense (M := 50000) (K := 64) (N := 40)
          (Cert.Gcn.biasRelu (M := 50000) (N := 64)
            (aggregate64 (Cert.Gcn.dense (M := 50000) (K := 256) (N := 64) x w1) (srcOf e) (dstOf e) (weightOf (srcOf e) (dstOf e)))
            (shapeCast S1x64 b1 Cert.KernelIdeal.Facts₀.shapeCasts_S64_S1x64)) w2)
          (srcOf e) (dstOf e) (weightOf (srcOf e) (dstOf e)) := by
    rw [e2]
    exact congrArg (fun h => aggregate40 h (srcOf e) (dstOf e) (weightOf (srcOf e) (dstOf e)))
      (Cert.Gcn.RefStage.hostDense_eq (M := 50000) (K := 64) (N := 40) dot_S50000x64_S64x40_S50000x40_1_0_0_1_n_n rfl _ w2)
  -- the second bias and the log-softmax
  unfold Cert.ReferenceIdeal.Chain.refOut Cert.KernelIdeal.Chain.kernelOut
  rw [e3]
  unfold Cert.ReferenceIdeal.Chain.hostLogSoftmax
  exact Cert.Gcn.RefStage.hostBiasLogSoftmax_eq (M := 50000) (N := 40) _ b2 bcast_S40_S1x40_1 bcast_S1x40_S50000x40_0_1 bcast_S_S50000
    bcast_S50000_S50000x1_0 bcast_S50000x1_S50000x40_0_1 reducesTo_S50000x40_S50000_d1 h_S_ _

end Cert.Bridge

end
-- ==== Proof.RefKept.lean ====
/-
  The reference program writes none of its six argument arrays: across each of its four stretches an argument's
  buffer holds what it held before, so at the return it holds its launch contents.
-/
import proofs.«154348_j75479755260510_1_alg».proof.Proof.RefStretches

set_option maxRecDepth 16384

noncomputable section

namespace Cert.ReferenceIdeal.Kept

open Cert.ReferenceIdeal Cert.ReferenceIdeal.Gen Cert.ReferenceIdeal.Stretches
open Idealize.ShloMosaic Idealize.ShloMosaic.TcCoe Idealize.SL.Sem Idealize.ShloMosaic.StableHlo

variable {F : FTy → Type} [FloatOps F]
variable (m : (ℓ : Loc nD τ sig) → Buf (Elt F) ℓ)

/-- No operation of the program writes argument 0. -/
theorem kept_arg0 (c : Dev nD) :
    after Cert.ReferenceIdeal.RunP.ops (launchContents m c) (Proc.devRef .tc main_arg0) = m ((c.tc : Thread nD τ).loc main_arg0) := by
  rw [after_ops]
  have hD : RD m c (Proc.devRef .tc main_arg0) = RC m c (Proc.devRef .tc main_arg0) := by
    show after opsSoftmax (RC m c) (Proc.devRef .tc main_arg0) = _
    after_results
  have hC : RC m c (Proc.devRef .tc main_arg0) = RB m c (Proc.devRef .tc main_arg0) := by
    show after opsLayer2 (RB m c) (Proc.devRef .tc main_arg0) = _
    after_results
  have hB : RB m c (Proc.devRef .tc main_arg0) = RA m c (Proc.devRef .tc main_arg0) := by
    show after opsLayer1 (RA m c) (Proc.devRef .tc main_arg0) = _
    after_results
  have hA : RA m c (Proc.devRef .tc main_arg0) = m ((c.tc : Thread nD τ).loc main_arg0) := by
    show after opsEdges (launchContents m c) (Proc.devRef .tc main_arg0) = _
    after_results
  exact hD.trans (hC.trans (hB.trans hA))

/-- No operation of the program writes argument 1. -/
theorem kept_arg1 (c : Dev nD) :
    after Cert.ReferenceIdeal.RunP.ops (launchContents m c) (Proc.devRef .tc main_arg1) = m ((c.tc : Thread nD τ).loc main_arg1) := by
  rw [after_ops]
  have hD : RD m c (Proc.devRef .tc main_arg1) = RC m c (Proc.devRef .tc main_arg1) := by
    show after opsSoftmax (RC m c) (Proc.devRef .tc main_arg1) = _
    after_results
  have hC : RC m c (Proc.devRef .tc main_arg1) = RB m c (Proc.devRef .tc main_arg1) := by
    show after opsLayer2 (RB m c) (Proc.devRef .tc main_arg1) = _
    after_results
  have hB : RB m c (Proc.devRef .tc main_arg1) = RA m c (Proc.devRef .tc main_arg1) := by
    show after opsLayer1 (RA m c) (Proc.devRef .tc main_arg1) = _
    after_results
  have hA : RA m c (Proc.devRef .tc main_arg1) = m ((c.tc : Thread nD τ).loc main_arg1) := by
    show after opsEdges (launchContents m c) (Proc.devRef .tc main_arg1) = _
    after_results
  exact hD.trans (hC.trans (hB.trans hA))

/-- No operation of the program writes argument 2. -/
theorem kept_arg2 (c : Dev nD) :
    after Cert.ReferenceIdeal.RunP.ops (launchContents m c) (Proc.devRef .tc main_arg2) = m ((c.tc : Thread nD τ).loc main_arg2) := by
  rw [after_ops]
  have hD : RD m c (Proc.devRef .tc main_arg2) = RC m c (Proc.devRef .tc main_arg2) := by
    show after opsSoftmax (RC m c) (Proc.devRef .tc main_arg2) = _
    after_results
  have hC : RC m c (Proc.devRef .tc main_arg2) = RB m c (Proc.devRef .tc main_arg2) := by
    show after opsLayer2 (RB m c) (Proc.devRef .tc main_arg2) = _
    after_results
  have hB : RB m c (Proc.devRef .tc main_arg2) = RA m c (Proc.devRef .tc main_arg2) := by
    show after opsLayer1 (RA m c) (Proc.devRef .tc main_arg2) = _
    after_results
  have hA : RA m c (Proc.devRef .tc main_arg2) = m ((c.tc : Thread nD τ).loc main_arg2) := by
    show after opsEdges (launchContents m c) (Proc.devRef .tc main_arg2) = _
    after_results
  exact hD.trans (hC.trans (hB.trans hA))

/-- No operation of the program writes argument 3. -/
theorem kept_arg3 (c : Dev nD) :
    after Cert.ReferenceIdeal.RunP.ops (launchContents m c) (Proc.devRef .tc main_arg3) = m ((c.tc : Thread nD τ).loc main_arg3) := by
  rw [after_ops]
  have hD : RD m c (Proc.devRef .tc main_arg3) = RC m c (Proc.devRef .tc main_arg3) := by
    show after opsSoftmax (RC m c) (Proc.devRef .tc main_arg3) = _
    after_results
  have hC : RC m c (Proc.devRef .tc main_arg3) = RB m c (Proc.devRef .tc main_arg3) := by
    show after opsLayer2 (RB m c) (Proc.devRef .tc main_arg3) = _
    after_results
  have hB : RB m c (Proc.devRef .tc main_arg3) = RA m c (Proc.devRef .tc main_arg3) := by
    show after opsLayer1 (RA m c) (Proc.devRef .tc main_arg3) = _
    after_results
  have hA : RA m c (Proc.devRef .tc main_arg3) = m ((c.tc : Thread nD τ).loc main_arg3) := by
    show after opsEdges (launchContents m c) (Proc.devRef .tc main_arg3) = _
    after_results
  exact hD.trans (hC.trans (hB.trans hA))

/-- No operation of the program writes argument 4. -/
theorem kept_arg4 (c : Dev nD) :
    after Cert.ReferenceIdeal.RunP.ops (launchContents m c) (Proc.devRef .tc main_arg4) = m ((c.tc : Thread nD τ).loc main_arg4) := by
  rw [after_ops]
  have hD : RD m c (Proc.devRef .tc main_arg4) = RC m c (Proc.devRef .tc main_arg4) := by
    show after opsSoftmax (RC m c) (Proc.devRef .tc main_arg4) = _
    after_results
  have hC : RC m c (Proc.devRef .tc main_arg4) = RB m c (Proc.devRef .tc main_arg4) := by
    show after opsLayer2 (RB m c) (Proc.devRef .tc main_arg4) = _
    after_results
  have hB : RB m c (Proc.devRef .tc main_arg4) = RA m c (Proc.devRef .tc main_arg4) := by
    show after opsLayer1 (RA m c) (Proc.devRef .tc main_arg4) = _
    after_results
  have hA : RA m c (Proc.devRef .tc main_arg4) = m ((c.tc : Thread nD τ).loc main_arg4) := by
    show after opsEdges (launchContents m c) (Proc.devRef .tc main_arg4) = _
    after_results
  exact hD.trans (hC.trans (hB.trans hA))

/-- No operation of the program writes argument 5. -/
theorem kept_arg5 (c : Dev nD) :
    after Cert.ReferenceIdeal.RunP.ops (launchContents m c) (Proc.devRef .tc main_arg5) = m ((c.tc : Thread nD τ).loc main_arg5) := by
  rw [after_ops]
  have hD : RD m c (Proc.devRef .tc main_arg5) = RC m c (Proc.devRef .tc main_arg5) := by
    show after opsSoftmax (RC m c) (Proc.devRef .tc main_arg5) = _
    after_results
  have hC : RC m c (Proc.devRef .tc main_arg5) = RB m c (Proc.devRef .tc main_arg5) := by
    show after opsLayer2 (RB m c) (Proc.devRef .tc main_arg5) = _
    after_results
  have hB : RB m c (Proc.devRef .tc main_arg5) = RA m c (Proc.devRef .tc main_arg5) := by
    show after opsLayer1 (RA m c) (Proc.devRef .tc main_arg5) = _
    after_results
  have hA : RA m c (Proc.devRef .tc main_arg5) = m ((c.tc : Thread nD τ).loc main_arg5) := by
    show after opsEdges (launchContents m c) (Proc.devRef .tc main_arg5) = _
    after_results
  exact hD.trans (hC.trans (hB.trans hA))

end Cert.ReferenceIdeal.Kept

end
-- ==== Proof.RegionDense0.lean ====
/-
  The first on-chip product of the two-layer graph convolution, read as one whole-array function.

  The stage runs over ten grid points. At point t it multiplies rows 5000 t … 5000 t + 4999 of the [50000, 256]
  left array by the whole [256, 64] right array, into a zero accumulator, and writes the [5000, 64] result back
  as rows 5000 t … 5000 t + 4999 of the output. Over the extended reals the rounding of the operands is the
  identity, so entry (5000 t + p, q) of the output is the sum over k of left (5000 t + p, k) · right (k, q).
  The ten row blocks tile the output, so the output array after the stage is the plain matrix product of the
  two arrays as the stage found them.
-/
import proofs.«154348_j75479755260510_1_alg».proof.Proof.Gen.KernelIdeal.Frame
import proofs.«154348_j75479755260510_1_alg».proof.Proof.Spec
import proofs.«154348_j75479755260510_1_alg».proof.Proof.LibPlainDot
import Idealize.ShloMosaic.Lib.Pipeline.Value
import Idealize.ShloMosaic.Lib.ValueIdx

set_option maxRecDepth 16384

noncomputable section

namespace Cert.KernelIdeal.RegionDense

open Cert.KernelIdeal Cert.KernelIdeal.Gen Idealize.ShloMosaic Idealize.ShloMosaic.TcCoe Idealize.SL.Sem
open Idealize.ShloMosaic.ValueIdx
open Idealize.ShloMosaic.Pipeline (Dat)

/-- The offset vector (0, 0) is the constant zero. -/
theorem zeroOffsets0 : (![0, 0] : Fin 2 → Nat) = fun _ => 0 := funext fun a => by fin_cases a <;> rfl

/-- The first product contracts the left operand's second axis with the right operand's first: the plain one. -/
theorem dims0 : dot_S5000x256_S256x64_S5000x64_1_0_0_1_n_n = DotDims.plain 5000 256 64 := rfl

/-- One block's product at entry (p, q): the sum over k of left (p, k) · right (k, q). -/
theorem blockProduct0_apply (x0 : Vec Ideal S5000x256 .f32) (x1 : Vec Ideal S256x64 .f32) (p : Fin 5000) (q : Fin 64) :
    k0_pay1 x0 x1 (ix2 p q) = ∑ k : Fin 256, x0 (ix2 p k) * x1 (ix2 k q) := by
  unfold k0_pay1
  exact Cert.PlainDot.matmul_zero_apply dot_S5000x256_S256x64_S5000x64_1_0_0_1_n_n dims0 none
    (truncf .bf16 x0 bitsLt_bf16_f32) (truncf .bf16 x1 bitsLt_bf16_f32) p q

/-- The same at any index of the block. -/
theorem blockProduct0_at (x0 : Vec Ideal S5000x256 .f32) (x1 : Vec Ideal S256x64 .f32) (j : S5000x64.Idx) :
    k0_pay1 x0 x1 j = ∑ k : Fin 256, x0 (ix2 (j 0) k) * x1 (ix2 k (j 1)) := by
  obtain ⟨p, q, rfl⟩ : ∃ (p : Fin 5000) (q : Fin 64), j = ix2 p q := ⟨j 0, j 1, eq_ix2 j⟩
  exact blockProduct0_apply x0 x1 p q

/-- Where the ten grid points put their blocks: the left and the output block at row block t, column block 0;
    the right block always at (0, 0). -/
theorem blockIndices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- The left window's block at point t is rows 5000 t … 5000 t + 4999 of the left array. -/
theorem leftBlock0_apply (c : Dev nD) (t : Fin cfg0.N) (p : Fin 5000) (k : Fin 256) (i : S50000x256.Idx)
    (hi0 : (i 0).val = t.val * 5000 + p.val) (hi1 : (i 1).val = k.val) :
    (Gen.iblk0 V c 0 t : Vec Ideal S5000x256 .f32) (ix2 p k) = (V c main_arg0 : S50000x256.Idx → EReal) i := by
  obtain ⟨e0, e1, -, -, -, -⟩ := blockIndices0 t
  unfold Gen.iblk0
  rw [View.read_apply]
  show V c main_arg0 _ = V c main_arg0 _
  congr 1
  funext a
  apply Fin.ext
  match a with
  | ⟨0, _⟩ => show win0_0.index t (0 : Fin 2) * 5000 + 1 * p.val = (i 0).val; rw [e0, hi0]; omega
  | ⟨1, _⟩ => show win0_0.index t (1 : Fin 2) * 256 + 1 * k.val = (i 1).val; rw [e1, hi1]; omega

/-- The right window's block at every point is the whole right array. -/
theorem rightBlock0_apply (c : Dev nD) (t : Fin cfg0.N) (k : Fin 256) (q : Fin 64) :
    (Gen.iblk0 V c 1 t : Vec Ideal S256x64 .f32) (ix2 k q) = (V c main_arg2 : S256x64.Idx → EReal) (ix2 k q) := by
  obtain ⟨-, -, e2, e3, -, -⟩ := blockIndices0 t
  unfold Gen.iblk0
  rw [View.read_apply]
  show V c main_arg2 _ = V c main_arg2 _
  congr 1
  funext a
  apply Fin.ext
  match a with
  | ⟨0, _⟩ => show win0_1.index t (0 : Fin 2) * 256 + 1 * k.val = k.val; rw [e2]; omega
  | ⟨1, _⟩ => show win0_1.index t (1 : Fin 2) * 64 + 1 * q.val = q.val; rw [e3]; omega

end

/-- One block's product at index j is the plain product of two arrays at index i, when row (j 0) of the left
    block is row (i 0) of the left array and column (j 1) of the right block is column (i 1) of the right array. -/
theorem blockEntry0 (x0 : Vec Ideal S5000x256 .f32) (x1 : Vec Ideal S256x64 .f32)
    (a0 : S50000x256.Idx → EReal) (a1 : S256x64.Idx → EReal) (j : S5000x64.Idx) (i : S50000x64.Idx)
    (h0 : ∀ k : Fin 256, x0 (ix2 (j 0) k) = a0 (ix2 (i 0) k))
    (h1 : ∀ k : Fin 256, x1 (ix2 k (j 1)) = a1 (ix2 k (i 1))) :
    k0_pay1 x0 x1 j = Cert.Gcn.dense (M := 50000) (K := 256) (N := 64) a0 a1 i :=
  (blockProduct0_at x0 x1 j).trans (Finset.sum_congr rfl fun k _ => by rw [h0 k, h1 k])

section
variable (V : (c : Dev nD) → (b : Ref sig .tc) → Buf (Elt Ideal) ((c : Thread nD τ).loc b))

/-- What point t writes back is block t of the plain product of the two arrays as the stage found them. -/
theorem writtenBack0 (c : Dev nD) (t : Fin cfg0.N) :
    (Gen.dat0 (F := Ideal) V c).flushed 2 t
      = ((cfg0.win 2).blk t).view.read (Elt Ideal) (Cert.Gcn.dense (M := 50000) (K := 256) (N := 64) (V c main_arg0) (V c main_arg2)) := by
  show (cfg0.win 2).cut (grid0.coords t) ((Gen.dat0 V c).after 2 t) = _
  rw [Gen.after0_2]
  unfold Gen.out0_2
  rw [View.canon_unit_zero zeroOffsets0]
  simp only [View.ld_unit_zero (S := S5000x256) zeroOffsets0, View.ld_unit_zero (S := S256x64) zeroOffsets0]
  obtain ⟨-, -, -, -, e4, e5⟩ := blockIndices0 t
  funext j
  refine blockEntry0 (Gen.iblk0 V c 0 t) (Gen.iblk0 V c 1 t) (V c main_arg0) (V c main_arg2) j
    (((cfg0.win 2).blk t).view.emb j) (fun k => ?_) (fun k => ?_)
  · refine leftBlock0_apply V c t (j 0) k _ ?_ rfl
    show win0_2.index t (0 : Fin 2) * 5000 + 1 * (j 0).val = t.val * 5000 + (j 0).val
    rw [e4]; omega
  · refine (rightBlock0_apply V c t k (j 1)).trans ?_
    congr 1
    funext a
    apply Fin.ext
    match a with
    | ⟨0, _⟩ => rfl
    | ⟨1, _⟩ => show (j 1).val = win0_2.index t (1 : Fin 2) * 64 + 1 * (j 1).val; rw [e5]; omega

end

/-- An index of the output array is in point t's block iff each coordinate is in the block's range on its axis. -/
theorem mem_block0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- The ten row blocks tile the output: row r is in the block of point r / 5000. -/
theorem covered0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, e4, e5⟩ := blockIndices0 t
  have ht : t.val = (i 0).val / 5000 := rfl
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 64 ≤ (i 1).val ∧ (i 1).val < win0_2.index t (1 : Fin 2) * 64 + 64; rw [e5]; omega

section
variable (V : (c : Dev nD) → (b : Ref sig .tc) → Buf (Elt Ideal) ((c : Thread nD τ).loc b))

/-- After the stage its output array is the plain product of the left and the right array as the stage found them. -/
theorem arr0 (c : Dev nD) :
    (Gen.dat0 (F := Ideal) V c).arrAt 2 cfg0.N = Cert.Gcn.dense (M := 50000) (K := 256) (N := 64) (V c main_arg0) (V c main_arg2) :=
  (Gen.dat0 (F := Ideal) V c).arrAt_eq_of_cover 2 (Cert.Gcn.dense (M := 50000) (K := 256) (N := 64) (V c main_arg0) (V c main_arg2))
    (fun t _ => writtenBack0 V c t) covered0

end

end Cert.KernelIdeal.RegionDense

end
-- ==== Proof.RegionDense2.lean ====
/-
  The second on-chip product of the two-layer graph convolution, read as one whole-array function.

  The stage runs over ten grid points. At point t it multiplies rows 5000 t … 5000 t + 4999 of the [50000, 64]
  left array by the whole [64, 40] right array, into a zero accumulator, and writes the [5000, 40] result back
  as rows 5000 t … 5000 t + 4999 of the output. Over the extended reals the rounding of the operands is the
  identity, and the left block is first recast to its own shape, which changes nothing; so entry (5000 t + p, q)
  of the output is the sum over k of left (5000 t + p, k) · right (k, q). The ten row blocks tile the output,
  so the output array after the stage is the plain matrix product of the two arrays as the stage found them.
-/
import proofs.«154348_j75479755260510_1_alg».proof.Proof.Gen.KernelIdeal.Frame
import proofs.«154348_j75479755260510_1_alg».proof.Proof.Spec
import proofs.«154348_j75479755260510_1_alg».proof.Proof.LibPlainDot
import Idealize.ShloMosaic.Lib.Pipeline.Value
import Idealize.ShloMosaic.Lib.ValueIdx

set_option maxRecDepth 16384

noncomputable section

namespace Cert.KernelIdeal.RegionDense

open Cert.KernelIdeal Cert.KernelIdeal.Gen Idealize.ShloMosaic Idealize.ShloMosaic.TcCoe Idealize.SL.Sem
open Idealize.ShloMosaic.ValueIdx
open Idealize.ShloMosaic.Pipeline (Dat)

/-- The offset vector (0, 0) is the constant zero. -/
theorem zeroOffsets2 : (![0, 0] : Fin 2 → Nat) = fun _ => 0 := funext fun a => by fin_cases a <;> rfl

/-- The second product contracts the left operand's second axis with the right operand's first: the plain one. -/
theorem dims2 : dot_S5000x64_S64x40_S5000x40_1_0_0_1_n_n = DotDims.plain 5000 64 40 := rfl

/-- One block's product at entry (p, q): the sum over k of left (p, k) · right (k, q). -/
theorem blockProduct2_apply (x0 : Vec Ideal S5000x64 .f32) (x1 : Vec Ideal S64x40 .f32) (p : Fin 5000) (q : Fin 40) :
    k2_pay1 x0 x1 (ix2 p q) = ∑ k : Fin 64, x0 (ix2 p k) * x1 (ix2 k q) := by
  unfold k2_pay1
  rw [shapeCast_self]
  exact Cert.PlainDot.matmul_zero_apply dot_S5000x64_S64x40_S5000x40_1_0_0_1_n_n dims2 none
    (truncf .bf16 x0 bitsLt_bf16_f32) (truncf .bf16 x1 bitsLt_bf16_f32) p q

/-- The same at any index of the block. -/
theorem blockProduct2_at (x0 : Vec Ideal S5000x64 .f32) (x1 : Vec Ideal S64x40 .f32) (j : S5000x40.Idx) :
    k2_pay1 x0 x1 j = ∑ k : Fin 64, x0 (ix2 (j 0) k) * x1 (ix2 k (j 1)) := by
  obtain ⟨p, q, rfl⟩ : ∃ (p : Fin 5000) (q : Fin 40), j = ix2 p q := ⟨j 0, j 1, eq_ix2 j⟩
  exact blockProduct2_apply x0 x1 p q

/-- One block's product at index j is the plain product of two arrays at index i, when row (j 0) of the left
    block is row (i 0) of the left array and column (j 1) of the right block is column (i 1) of the right array. -/
theorem blockEntry2 (x0 : Vec Ideal S5000x64 .f32) (x1 : Vec Ideal S64x40 .f32)
    (a0 : S50000x64.Idx → EReal) (a1 : S64x40.Idx → EReal) (j : S5000x40.Idx) (i : S50000x40.Idx)
    (h0 : ∀ k : Fin 64, x0 (ix2 (j 0) k) = a0 (ix2 (i 0) k))
    (h1 : ∀ k : Fin 64, x1 (ix2 k (j 1)) = a1 (ix2 k (i 1))) :
    k2_pay1 x0 x1 j = Cert.Gcn.dense (M := 50000) (K := 64) (N := 40) a0 a1 i :=
  (blockProduct2_at x0 x1 j).trans (Finset.sum_congr rfl fun k _ => by rw [h0 k, h1 k])

/-- Where the ten grid points put their blocks: the left and the output block at row block t, column block 0;
    the right block always at (0, 0). -/
theorem blockIndices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An index of the output array is in point t's block iff each coordinate is in the block's range on its axis. -/
theorem mem_block2 (t : Fin cfg2.N) (i : S50000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v43).slice (win2_2.rect t)).set ↔ _
  rw [View.set_slice_whole, Rect.mem_set_unit]
  exact Iff.rfl

/-- The ten row blocks tile the output: row r is in the block of point r / 5000. -/
theorem covered2 (i : S50000x40.Idx) :
    ∃ t : Fin cfg2.N, (cfg2.win 2).flush t = true ∧ i ∈ ((cfg2.win 2).blk t).view.set := by
  have hi0 : (i 0).val < 50000 := (i 0).isLt
  have hi1 : (i 1).val < 40 := (i 1).isLt
  have hN : cfg2.N = 10 := N_2
  let t : Fin cfg2.N := ⟨(i 0).val / 5000, by rw [hN]; omega⟩
  obtain ⟨-, -, -, -, e4, e5⟩ := blockIndices2 t
  have ht : t.val = (i 0).val / 5000 := rfl
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 40 ≤ (i 1).val ∧ (i 1).val < win2_2.index t (1 : Fin 2) * 40 + 40; rw [e5]; omega

section
variable (V : (c : Dev nD) → (b : Ref sig .tc) → Buf (Elt Ideal) ((c : Thread nD τ).loc b))

/-- The left window's block at point t is rows 5000 t … 5000 t + 4999 of the left array. -/
theorem leftBlock2_apply (c : Dev nD) (t : Fin cfg2.N) (p : Fin 5000) (k : Fin 64) (i : S50000x64.Idx)
    (hi0 : (i 0).val = t.val * 5000 + p.val) (hi1 : (i 1).val = k.val) :
    (Gen.iblk2 V c 0 t : Vec Ideal S5000x64 .f32) (ix2 p k) = (V c main_v42 : S50000x64.Idx → EReal) i := by
  obtain ⟨e0, e1, -, -, -, -⟩ := blockIndices2 t
  unfold Gen.iblk2
  rw [View.read_apply]
  show V c main_v42 _ = V c main_v42 _
  congr 1
  funext a
  apply Fin.ext
  match a with
  | ⟨0, _⟩ => show win2_0.index t (0 : Fin 2) * 5000 + 1 * p.val = (i 0).val; rw [e0, hi0]; omega
  | ⟨1, _⟩ => show win2_0.index t (1 : Fin 2) * 64 + 1 * k.val = (i 1).val; rw [e1, hi1]; omega

/-- The right window's block at every point is the whole right array. -/
theorem rightBlock2_apply (c : Dev nD) (t : Fin cfg2.N) (k : Fin 64) (q : Fin 40) :
    (Gen.iblk2 V c 1 t : Vec Ideal S64x40 .f32) (ix2 k q) = (V c main_arg4 : S64x40.Idx → EReal) (ix2 k q) := by
  obtain ⟨-, -, e2, e3, -, -⟩ := blockIndices2 t
  unfold Gen.iblk2
  rw [View.read_apply]
  show V c main_arg4 _ = V c main_arg4 _
  congr 1
  funext a
  apply Fin.ext
  match a with
  | ⟨0, _⟩ => show win2_1.index t (0 : Fin 2) * 64 + 1 * k.val = k.val; rw [e2]; omega
  | ⟨1, _⟩ => show win2_1.index t (1 : Fin 2) * 40 + 1 * q.val = q.val; rw [e3]; omega

/-- What point t writes back is block t of the plain product of the two arrays as the stage found them. -/
theorem writtenBack2 (c : Dev nD) (t : Fin cfg2.N) :
    (Gen.dat2 (F := Ideal) V c).flushed 2 t
      = ((cfg2.win 2).blk t).view.read (Elt Ideal) (Cert.Gcn.dense (M := 50000) (K := 64) (N := 40) (V c main_v42) (V c main_arg4)) := by
  show (cfg2.win 2).cut (grid2.coords t) ((Gen.dat2 V c).after 2 t) = _
  rw [Gen.after2_2]
  unfold Gen.out2_2
  rw [View.canon_unit_zero zeroOffsets2]
  simp only [View.ld_unit_zero (S := S5000x64) zeroOffsets2, View.ld_unit_zero (S := S64x40) zeroOffsets2]
  obtain ⟨-, -, -, -, e4, e5⟩ := blockIndices2 t
  funext j
  refine blockEntry2 (Gen.iblk2 V c 0 t) (Gen.iblk2 V c 1 t) (V c main_v42) (V c main_arg4) j
    (((cfg2.win 2).blk t).view.emb j) (fun k => ?_) (fun k => ?_)
  · refine leftBlock2_apply V c t (j 0) k _ ?_ rfl
    show win2_2.index t (0 : Fin 2) * 5000 + 1 * (j 0).val = t.val * 5000 + (j 0).val
    rw [e4]; omega
  · refine (rightBlock2_apply V c t k (j 1)).trans ?_
    congr 1
    funext a
    apply Fin.ext
    match a with
    | ⟨0, _⟩ => rfl
    | ⟨1, _⟩ => show (j 1).val = win2_2.index t (1 : Fin 2) * 40 + 1 * (j 1).val; rw [e5]; omega

/-- After the stage its output array is the plain product of the left and the right array as the stage found them. -/
theorem arr2 (c : Dev nD) :
    (Gen.dat2 (F := Ideal) V c).arrAt 2 cfg2.N = Cert.Gcn.dense (M := 50000) (K := 64) (N := 40) (V c main_v42) (V c main_arg4) :=
  (Gen.dat2 (F := Ideal) V c).arrAt_eq_of_cover 2 (Cert.Gcn.dense (M := 50000) (K := 64) (N := 40) (V c main_v42) (V c main_arg4))
    (fun t _ => writtenBack2 V c t) covered2

end

end Cert.KernelIdeal.RegionDense

end
-- ==== Proof.RegionBiasRelu.lean ====
/-
  The second on-chip stage of the graph convolution as one function of the arrays it finds.

  The stage walks ten grid points. At point t it reads rows 5000 t … 5000 t + 4999 of a [50000, 64] array a and the one
  [1, 64] row b, and writes, to the same rows of its result, the entrywise maximum with zero of the block plus the row
  repeated down the block's rows. Entry (5000 t + p, q) of the result is therefore max (a(5000 t + p, q) + b(0, q)) 0:
  the value at that entry of the whole-array function `Cert.Gcn.biasRelu a b`. The ten blocks tile the result (the
  block holding row r is block r / 5000), so after the last point the result array is `Cert.Gcn.biasRelu a b`.
-/
import proofs.«154348_j75479755260510_1_alg».proof.Proof.Gen.KernelIdeal.Frame
import proofs.«154348_j75479755260510_1_alg».proof.Proof.Spec
import Idealize.ShloMosaic.Lib.Pipeline.Value
import Idealize.ShloMosaic.Lib.ValueIdx
import Idealize.ShloMosaic.PureOps.Ideal.Laws

noncomputable section

namespace Cert.KernelIdeal.RegionBiasRelu

open Cert.KernelIdeal Cert.KernelIdeal.Gen Idealize.ShloMosaic Idealize.ShloMosaic.TcCoe Idealize.SL.Sem
open Idealize.ShloMosaic.ValueIdx
open Idealize.ShloMosaic.Pipeline (Dat)

/-- The offsets (0, 0), however spelt, are the zero offsets. -/
theorem zeroOffsets : (![0, 0] : Fin 2 → Nat) = fun _ => 0 := funext fun a => by fin_cases a <;> rfl

/-! ## One block: the body's arithmetic at an entry -/

/-- Entry (p, q) of what the body stores: the block's entry plus the row's entry in column q, cut off below at zero. -/
theorem payload_apply (x0 : Vec Ideal S5000x64 .f32) (x1 : Vec Ideal S1x64 .f32) (p : Fin 5000) (q : Fin 64) :
    Gen.k1_pay1 x0 x1 (ix2 p q) = max (x0 (ix2 p q) + x1 (ix2 (0 : Fin 1) q)) 0 := by
  unfold Gen.k1_pay1
  show max (shapeCast S5000x64 x0 shapeCasts_S5000x64_S5000x64 (ix2 p q)
      + broadcastTo S5000x64 (shapeCast S1x64 x1 shapeCasts_S1x64_S1x64) broadcasts_S1x64_S5000x64 (ix2 p q))
      (Ideal.ofBits .f32 0x00000000#32) = _
  rw [shapeCast_self, shapeCast_self, Ideal.ofBits_zero_f32]
  refine congrArg (fun u => max (x0 (ix2 p q) + u) 0) ?_
  refine broadcastTo_apply x1 broadcasts_S1x64_S5000x64 (ix2 p q) (ix2 (0 : Fin 1) q) (fun a => ?_)
  match a with
  | ⟨0, _⟩ => rfl
  | ⟨1, _⟩ => rfl

/-! ## The windows' index maps over the grid -/

/-- Over the ten points: the array window and the result window are at block (t, 0), the row window at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- There are ten points. -/
theorem point_lt (t : Fin cfg1.N) : t.val < 10 := lt_of_lt_of_eq t.isLt N_1

/-- Row p of block t is row 5000 t + p of the array. -/
def row (t : Fin cfg1.N) (p : Fin 5000) : Fin 50000 := ⟨5000 * t.val + p.val, by have := point_lt t; have := p.isLt; omega⟩

/-! ## The windows' blocks at an entry -/

/-- Entry (p, q) of the array window's block at point t is entry (5000 t + p, q) of the array. -/
theorem arrayBlock_apply (V : (c : Dev nD) → (b : Ref sig .tc) → Buf (Elt Ideal) ((c : Thread nD τ).loc b)) (c : Dev nD)
    (t : Fin cfg1.N) (p : Fin 5000) (q : Fin 64) :
    (Gen.iblk1 (F := Ideal) V c 0 t : Vec Ideal S5000x64 .f32) (ix2 p q)
      = (V c main_v40 : S50000x64.Idx → EReal) (ix2 (row t p) q) := by
  obtain ⟨e0, e1, -⟩ := idx_facts t
  unfold Gen.iblk1
  rw [View.read_apply]
  show V c main_v40 _ = V c main_v40 _
  refine congrArg (V c main_v40) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 64 + 1 * q.val = q.val; rw [e1]; omega

/-- Entry (0, q) of the row window's block at any point is entry (0, q) of the row. -/
theorem rowBlock_apply (V : (c : Dev nD) → (b : Ref sig .tc) → Buf (Elt Ideal) ((c : Thread nD τ).loc b)) (c : Dev nD)
    (t : Fin cfg1.N) (q : Fin 64) :
    (Gen.iblk1 (F := Ideal) V c 1 t : Vec Ideal S1x64 .f32) (ix2 (0 : Fin 1) q)
      = (V c main_v41 : S1x64.Idx → EReal) (ix2 (0 : Fin 1) q) := by
  obtain ⟨-, -, e2, e3, -⟩ := idx_facts t
  unfold Gen.iblk1
  rw [View.read_apply]
  show V c main_v41 _ = V c main_v41 _
  refine congrArg (V c main_v41) (funext fun a => Fin.ext ?_)
  match a with
  | ⟨0, _⟩ => show win1_1.index t (0 : Fin 2) * 1 + 1 * 0 = 0; rw [e2]
  | ⟨1, _⟩ => show win1_1.index t (1 : Fin 2) * 64 + 1 * q.val = q.val; rw [e3]; omega

/-- Entry (p, q) of the result window's block at point t sits at entry (5000 t + p, q) of the result. -/
theorem resultBlock_emb (t : Fin cfg1.N) (p : Fin 5000) (q : Fin 64) :
    ((cfg1.win 2).blk t).view.emb (ix2 p q) = (ix2 (row t p) q : S50000x64.Idx) := by
  obtain ⟨-, -, -, -, e4, e5⟩ := idx_facts t
  funext a
  apply Fin.ext
  match a with
  | ⟨0, _⟩ => show win1_2.index t (0 : Fin 2) * 5000 + 1 * p.val = 5000 * t.val + p.val; rw [e4]; omega
  | ⟨1, _⟩ => show win1_2.index t (1 : Fin 2) * 64 + 1 * q.val = q.val; rw [e5]; omega

/-! ## What a point writes back -/

/-- Point t writes back block t of the positive part of the array plus the row. -/
theorem flushed_eq (V : (c : Dev nD) → (b : Ref sig .tc) → Buf (Elt Ideal) ((c : Thread nD τ).loc b)) (c : Dev nD)
    (t : Fin cfg1.N) :
    (Gen.dat1 (F := Ideal) V c).flushed 2 t
      = ((cfg1.win 2).blk t).view.read (Elt Ideal) (Cert.Gcn.biasRelu (V c main_v40) (V c main_v41)) := by
  show (cfg1.win 2).cut (grid1.coords t) ((Gen.dat1 V c).after 2 t) = _
  rw [Gen.after1_2]
  unfold Gen.out1_2
  rw [View.canon_unit_zero zeroOffsets]
  simp only [View.ld_unit_zero (S := S5000x64) zeroOffsets, View.ld_unit_zero (S := S1x64) zeroOffsets]
  funext j
  obtain ⟨p, q, rfl⟩ : ∃ (p : Fin 5000) (q : Fin 64), j = ix2 p q := ⟨j 0, j 1, eq_ix2 j⟩
  refine (payload_apply (Gen.iblk1 V c 0 t) (Gen.iblk1 V c 1 t) p q).trans ?_
  rw [View.read_apply, resultBlock_emb t p q, Cert.Gcn.biasRelu_apply]
  exact congrArg₂ (fun u v : EReal => max (u + v) 0) (arrayBlock_apply V c t p q) (rowBlock_apply V c t q)

/-! ## The blocks tile the result -/

/-- An entry of the result is in point t's block iff each coordinate is in the block's range on its axis. -/
theorem mem_block (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v42).slice (win1_2.rect t)).set ↔ _
  rw [View.set_slice_whole, Rect.mem_set_unit]
  exact Iff.rfl

/-- Every entry of the result is in the block of the point r / 5000, r its row, and that point writes back. -/
theorem covered (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨-, -, -, -, e4, e5⟩ := idx_facts ⟨(i 0).val / 5000, ht⟩
  refine ⟨⟨(i 0).val / 5000, ht⟩, flush1_2 _, ?_⟩
  rw [mem_block]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    rw [e5]
    omega

/-! ## The result array after the last point -/

/-- After the ten points the result array is the positive part of the array plus the row, entry by entry. -/
theorem arr1 (V : (c : Dev nD) → (b : Ref sig .tc) → Buf (Elt Ideal) ((c : Thread nD τ).loc b)) (c : Dev nD) :
    (Gen.dat1 (F := Ideal) V c).arrAt 2 cfg1.N = Cert.Gcn.biasRelu (V c main_v40) (V c main_v41) :=
  (Gen.dat1 (F := Ideal) V c).arrAt_eq_of_cover 2 (Cert.Gcn.biasRelu (V c main_v40) (V c main_v41))
    (fun t _ => flushed_eq V c t) covered

end Cert.KernelIdeal.RegionBiasRelu

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.RegionLogSoftmax.lean ====
/-
  The fourth on-chip stage of the two-layer graph convolution, read as one whole-array function: the output array of
  the region is the row-wise log-softmax of the first input array plus the row vector.

  The stage works on ten blocks of 5000 full rows of a [50000, 40] array. With z(p, j) = a(p, j) + b(0, j) on a block,
  the body stores (z(p, q) - m(p)) - log (Σ_j exp (z(p, j) - m(p))), where m(p) is the maximum of row p of z taken from
  minus infinity. First the body's value is identified, entry by entry, with the log-softmax of the block: the two
  reductions along the columns are the fold of max from the bottom element and the finite sum over the row; the
  resulting vectors, one entry per row, are laid as columns and repeated along the 40 columns. Then, because a block holds
  whole rows, the maximum and the sum of exponentials of row p of block t are those of row 5000 t + p of the array, so
  each block written back is the block of ONE function of the arrays. The ten blocks tile the array (row r lies in block
  r / 5000), so the array ends holding that function everywhere.
-/
import proofs.«154348_j75479755260510_1_alg».proof.Proof.Gen.KernelIdeal.Frame
import proofs.«154348_j75479755260510_1_alg».proof.Proof.Spec
import proofs.«154348_j75479755260510_1_alg».proof.Proof.LibColumn
import proofs.«154348_j75479755260510_1_alg».proof.Proof.LibLaneSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionLogSoftmax

open Idealize.ShloMosaic Idealize.ShloMosaic.ValueIdx Idealize.ShloMosaic.TcCoe Idealize.SL.Sem
open Idealize.ShloMosaic.Pipeline (Dat)
open Cert.KernelIdeal

theorem zero_offsets : (![0, 0] : Fin 2 → Nat) = fun _ => 0 := funext fun a => by fin_cases a <;> rfl

/-- The maximum along the columns, taken from minus infinity, read at row p: the fold of max from the bottom element over
    the row's entries. -/
theorem rowMax_apply (z : FVec Ideal S5000x40 .f32) (p : Fin 5000) :
    multiReduction (F := Ideal) .maximumf [1] S5000 z 0xFF800000#32 Gen.reduces_S5000x40_S5000 (.inl rfl) rfl (ix1 p)
      = (Finset.univ : Finset (Fin 40)).fold max ⊥ (fun j => z (ix2 p j)) := by
  refine (Ideal.multiReduction_maximumf_single z _ Gen.reduces_S5000x40_S5000 _ _ (ix1 p)).trans ?_
  rw [show FloatOps.ofBits (F := Ideal) .f32 0xFF800000#32 = (⊥ : EReal) from Cert.Gcn.ofBits_neg_inf_f32]
  refine congrArg (Finset.fold max ⊥ · Finset.univ) (funext fun j => ?_)
  exact congrArg z (funext fun ax => Fin.ext (by match ax with | ⟨0, _⟩ => rfl | ⟨1, _⟩ => rfl))

/-- The sum along the columns read at row p. -/
theorem rowSum_apply (z : FVec Ideal S5000x40 .f32) (p : Fin 5000) :
    multiReduction (F := Ideal) .add [1] S5000 z 0x00000000#32 Gen.reduces_S5000x40_S5000 (.inl rfl) rfl (ix1 p)
      = ∑ j : Fin 40, z (ix2 p j) :=
  Cert.LaneSum.sum_last2 z _ Gen.reduces_S5000x40_S5000 _ _ p

/-- A vector with one entry per row, laid as a column and repeated along the 40 columns, reads at (p, q) its entry p. -/
theorem column_apply (v : FVec Ideal S5000 .f32) (p : Fin 5000) (q : Fin 40) :
    broadcastTo S5000x40 (shapeCast S5000x1 v Gen.shapeCasts_S5000_S5000x1) Gen.broadcasts_S5000x1_S5000x40 (ix2 p q)
      = v (ix1 p) :=
  (Cert.GraphConv.Column.broadcastTo_a1_ab_apply _ _ p q).trans
    (Cert.GraphConv.Column.shapeCast_a_a1_apply v _ p (0 : Fin 1))

/-- The same with the logarithm taken entry by entry on the column: at (p, q) the logarithm of entry p. -/
theorem log_column_apply (v : FVec Ideal S5000 .f32) (p : Fin 5000) (q : Fin 40) :
    broadcastTo S5000x40 (log (shapeCast S5000x1 v Gen.shapeCasts_S5000_S5000x1)) Gen.broadcasts_S5000x1_S5000x40 (ix2 p q)
      = Ideal.log (v (ix1 p)) :=
  (Cert.GraphConv.Column.broadcastTo_a1_ab_apply _ _ p q).trans
    (congrArg Ideal.log (Cert.GraphConv.Column.shapeCast_a_a1_apply v _ p (0 : Fin 1)))

/-- What the body stores is the row-wise log-softmax of its block of rows plus the row vector: with z(p, j) the block's
    entry plus the vector's, m(p) the maximum of row p of z and s(p) the sum over the row of exp (z(p, j) - m(p)), the
    stored entry (p, q) is (z(p, q) - m(p)) - log s(p). -/
theorem payload_eq (x0 : Vec Ideal S5000x40 .f32) (x1 : Vec Ideal S1x40 .f32) :
    Gen.k3_pay1 (F := Ideal) x0 x1 = Cert.Gcn.biasLogSoftmax x0 x1 := by
  funext i
  obtain ⟨p, q, rfl⟩ : ∃ (p : Fin 5000) (q : Fin 40), i = ix2 p q := ⟨i 0, i 1, eq_ix2 i⟩
  rw [Cert.Gcn.biasLogSoftmax_apply]
  unfold Gen.k3_pay1
  simp only [subf_apply]
  have hz : ∀ (r : Fin 5000) (j : Fin 40),
      addf (F := Ideal) (φ := .f32) (shapeCast S5000x40 x0 Gen.shapeCasts_S5000x40_S5000x40)
        (broadcastTo S5000x40 (shapeCast S1x40 x1 Gen.shapeCasts_S1x40_S1x40) Gen.broadcasts_S1x40_S5000x40) (ix2 r j)
        = Cert.Gcn.shifted x0 x1 r j := fun r j => by
    rw [addf_apply, shapeCast_self, shapeCast_self, broadcastTo_1b_ab_apply]; rfl
  generalize addf (F := Ideal) (φ := .f32) (shapeCast S5000x40 x0 Gen.shapeCasts_S5000x40_S5000x40)
    (broadcastTo S5000x40 (shapeCast S1x40 x1 Gen.shapeCasts_S1x40_S1x40) Gen.broadcasts_S1x40_S5000x40) = z at hz ⊢
  have hm : ∀ r : Fin 5000,
      multiReduction (F := Ideal) .maximumf [1] S5000 z 0xFF800000#32 Gen.reduces_S5000x40_S5000 (.inl rfl) rfl (ix1 r)
        = Cert.Gcn.rowMax x0 x1 r := fun r => by
    rw [rowMax_apply]
    exact congrArg (Finset.fold max ⊥ · Finset.univ) (funext fun j => hz r j)
  rw [column_apply, log_column_apply, rowSum_apply, hm, hz]
  refine congrArg (fun s => _ - Ideal.log s) (Finset.sum_congr rfl fun j _ => ?_)
  show Ideal.exp (z (ix2 p j) - broadcastTo S5000x40 (shapeCast S5000x1 _ Gen.shapeCasts_S5000_S5000x1) Gen.broadcasts_S5000x1_S5000x40 (ix2 p j))
    = Ideal.exp (Cert.Gcn.shifted x0 x1 p j - Cert.Gcn.rowMax x0 x1 p)
  rw [column_apply, hm, hz]

/-! ## From the blocks to the array -/

/-- Rows are not cut by the blocks: when row p of a block of rows x0 is row r of the array A, and the row vector x1 is
    the array's row vector B, the log-softmax of the block at (p, q) is the log-softmax of the array at (r, q). -/
theorem rows_eq (A : S50000x40.Idx → EReal) (B : S1x40.Idx → EReal) (x0 : S5000x40.Idx → EReal) (x1 : S1x40.Idx → EReal)
    (p : Fin 5000) (r : Fin 50000) (h0 : ∀ j : Fin 40, x0 (ix2 p j) = A (ix2 r j))
    (h1 : ∀ j : Fin 40, x1 (ix2 (0 : Fin 1) j) = B (ix2 (0 : Fin 1) j)) (q : Fin 40) :
    Cert.Gcn.biasLogSoftmax x0 x1 (ix2 p q) = Cert.Gcn.biasLogSoftmax A B (ix2 r q) := by
  have hs : Cert.Gcn.shifted x0 x1 p = Cert.Gcn.shifted A B r := funext fun j => by
    unfold Cert.Gcn.shifted; rw [h0, h1]
  rw [Cert.Gcn.biasLogSoftmax_apply, Cert.Gcn.biasLogSoftmax_apply]
  unfold Cert.Gcn.rowExpSum Cert.Gcn.rowMax
  rw [hs]

/-- The printed index maps over the ten grid points: point t's block of the first input and of the output is block
    (t, 0); the row vector's is always block (0, 0). -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b)) (c : Dev nD)

/-- Entry (p, j) of the first input's block at point t is entry (5000 t + p, j) of its array. -/
theorem block0_apply (t : Fin cfg3.N) (p : Fin 5000) (j : Fin 40) (r : Fin 50000) (hr : r.val = t.val * 5000 + p.val) :
    (Gen.iblk3 (F := Ideal) V c 0 t : S5000x40.Idx → EReal) (ix2 p j) = (V c main_v56 : S50000x40.Idx → EReal) (ix2 r j) := by
  obtain ⟨e0, e1, -⟩ := index_facts t
  unfold Gen.iblk3
  rw [View.read_apply]
  show (V c main_v56 : S50000x40.Idx → EReal) (((cfg3.win 0).blk t).view.emb (ix2 p j)) = _
  refine congrArg _ (funext fun a => Fin.ext ?_)
  match a with
  | ⟨0, _⟩ => show win3_0.index t (0 : Fin 2) * 5000 + 1 * p.val = r.val; rw [e0, hr]; omega
  | ⟨1, _⟩ => show win3_0.index t (1 : Fin 2) * 40 + 1 * j.val = j.val; rw [e1]; omega

/-- The second input's block at every point is the whole row vector. -/
theorem block1_apply (t : Fin cfg3.N) (j : Fin 40) :
    (Gen.iblk3 (F := Ideal) V c 1 t : S1x40.Idx → EReal) (ix2 (0 : Fin 1) j) = (V c main_v57 : S1x40.Idx → EReal) (ix2 (0 : Fin 1) j) := by
  obtain ⟨-, -, e0, e1, -⟩ := index_facts t
  unfold Gen.iblk3
  rw [View.read_apply]
  show (V c main_v57 : S1x40.Idx → EReal) (((cfg3.win 1).blk t).view.emb (ix2 (0 : Fin 1) j)) = _
  refine congrArg _ (funext fun a => Fin.ext ?_)
  match a with
  | ⟨0, _⟩ => show win3_1.index t (0 : Fin 2) * 1 + 1 * 0 = 0; rw [e0]
  | ⟨1, _⟩ => show win3_1.index t (1 : Fin 2) * 40 + 1 * j.val = j.val; rw [e1]; omega

/-- What point t writes back is block t of the log-softmax of the whole arrays as the region finds them. -/
theorem flushed_eq (t : Fin cfg3.N) :
    (Gen.dat3 (F := Ideal) V c).flushed 2 t
      = ((cfg3.win 2).blk t).view.read (Elt Ideal) (Cert.Gcn.biasLogSoftmax (V c main_v56) (V c main_v57)) := by
  show (cfg3.win 2).cut (grid3.coords t) ((Gen.dat3 V c).after 2 t) = _
  rw [Gen.after3_2]
  unfold Gen.out3_2
  rw [View.canon_unit_zero zero_offsets]
  simp only [View.ld_unit_zero (S := S5000x40) zero_offsets, View.ld_unit_zero (S := S1x40) zero_offsets]
  rw [payload_eq]
  obtain ⟨-, -, -, -, e0, e1⟩ := index_facts t
  have hN : cfg3.N = 10 := Gen.N_3
  have ht : t.val < 10 := hN ▸ t.isLt
  funext y
  obtain ⟨p, q, rfl⟩ : ∃ (p : Fin 5000) (q : Fin 40), y = ix2 p q := ⟨y 0, y 1, eq_ix2 y⟩
  rw [View.read_apply]
  refine (rows_eq (V c main_v56) (V c main_v57) _ _ p ⟨t.val * 5000 + p.val, by omega⟩
    (fun j => block0_apply V c t p j _ rfl) (fun j => block1_apply V c t j) q).trans ?_
  refine congrArg _ (funext fun a => Fin.ext ?_)
  match a with
  | ⟨0, _⟩ => show t.val * 5000 + p.val = win3_2.index t (0 : Fin 2) * 5000 + 1 * p.val; rw [e0]; omega
  | ⟨1, _⟩ => show q.val = win3_2.index t (1 : Fin 2) * 40 + 1 * q.val; rw [e1]; omega

end

/-- An index of the array is in point t's block iff each coordinate is in the block's range on its axis. -/
theorem mem_block (t : Fin cfg3.N) (i : S50000x40.Idx) :
    i ∈ ((cfg3.win 2).blk t).view.set ↔ ∀ a : Fin 2, win3_2.index t a * S5000x40.size a ≤ (i a).val
      ∧ (i a).val < win3_2.index t a * S5000x40.size a + S5000x40.size a := by
  show i ∈ ((View.whole main_v58).slice (win3_2.rect t)).set ↔ _
  rw [View.set_slice_whole, Rect.mem_set_unit]
  exact Iff.rfl

/-- The ten blocks of 5000 full rows tile the array: row r lies in the block of point r / 5000. -/
theorem covered (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  have hN : cfg3.N = 10 := Gen.N_3
  have hlt : (i 0).val / 5000 < cfg3.N := by rw [hN]; omega
  obtain ⟨-, -, -, -, e0, e1⟩ := index_facts ⟨(i 0).val / 5000, hlt⟩
  refine ⟨⟨(i 0).val / 5000, hlt⟩, Gen.flush3_2 _, ?_⟩
  rw [mem_block]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win3_2.index ⟨(i 0).val / 5000, hlt⟩ (1 : Fin 2) * 40 ≤ (i 1).val
      ∧ (i 1).val < win3_2.index ⟨(i 0).val / 5000, hlt⟩ (1 : Fin 2) * 40 + 40
    rw [e1]
    omega

/-- The output array after the region: the row-wise log-softmax of the first input array plus the row vector, as the
    region finds them. -/
theorem arr3 (V : (c : Dev nD) → (b : Ref sig .tc) → Buf (Elt Ideal) ((c : Thread nD τ).loc b)) (c : Dev nD) :
    (Gen.dat3 (F := Ideal) V c).arrAt 2 cfg3.N = Cert.Gcn.biasLogSoftmax (V c main_v56) (V c main_v57) :=
  (Gen.dat3 (F := Ideal) V c).arrAt_eq_of_cover 2 (Cert.Gcn.biasLogSoftmax (V c main_v56) (V c main_v57))
    (fun t _ => flushed_eq V c t) covered

end Cert.KernelIdeal.RegionLogSoftmax

end
-- ==== Proof.lean ====
/-
  A two-layer graph convolution with a row-wise log-softmax, computed by a program of four pipelined on-chip stages
  among host operations, against a plain host program. Both build, from the edge list, the source and destination
  lists with a self loop per node, the inverse square roots of the in-degrees and the edge weights; both aggregate a
  feature matrix by gathering its rows at the sources, scaling them by the weights and adding them at the
  destinations. Between the aggregations the kernel program runs its stages: a dense product X·W₁ (operands rounded to
  a shorter format, which is the identity on extended reals, accumulated from zero), a row bias with the positive
  part, a second dense product, and a row bias with the log-softmax of every row; the host program spells the same
  four functions with its own operations. Over the extended reals each stage's whole array is one entry-by-entry
  function of the arrays it reads (ten blocks of 5000 rows tile the 50000 rows, and no row is cut), each host spelling
  is the same entry-by-entry function, and the aggregations are literally the same operations; so the two results
  are equal for all inputs, finite or not. The idealized kernel program is the kernel program's own text read over
  the extended reals (no operation was rewritten), and each program terminates without a fault leaving its arguments
  as launched.
-/
import proofs.«154348_j75479755260510_1_alg».proof.Defs
import proofs.«154348_j75479755260510_1_alg».proof.Proof.Gen.Kernel
import proofs.«154348_j75479755260510_1_alg».proof.Proof.Gen.Kernel.Frame
import proofs.«154348_j75479755260510_1_alg».proof.Proof.Gen.KernelIdeal
import proofs.«154348_j75479755260510_1_alg».proof.Proof.Gen.KernelIdeal.Frame
import proofs.«154348_j75479755260510_1_alg».proof.Proof.Gen.ReferenceIdeal
import proofs.«154348_j75479755260510_1_alg».proof.Proof.Gen.Pre_finite_inputs
import proofs.«154348_j75479755260510_1_alg».proof.Proof.Bridge
import proofs.«154348_j75479755260510_1_alg».proof.Proof.RefKept
import proofs.«154348_j75479755260510_1_alg».proof.Proof.RegionDense0
import proofs.«154348_j75479755260510_1_alg».proof.Proof.RegionDense2
import proofs.«154348_j75479755260510_1_alg».proof.Proof.RegionBiasRelu
import proofs.«154348_j75479755260510_1_alg».proof.Proof.RegionLogSoftmax
import Idealize.ShloMosaic.Adequacy
import Idealize.ShloMosaic.Init

noncomputable section

namespace Cert.Proof

open Idealize.ShloMosaic Idealize.ShloMosaic.TcCoe Idealize.SL.Sem

/-- The kernel program, at the word level: it terminates, nothing faults, its arguments end unchanged. -/
theorem frame_kernel : Cert.frame_Kernel := fun m ρ _ => Cert.Kernel.Gen.frame m ρ

/-- The same program read over the extended reals. -/
theorem frame_kernelIdeal : Cert.frame_KernelIdeal := fun m ρ _ => Cert.KernelIdeal.Gen.frame m ρ

/-- The host program: a straight line of operations none of which writes an argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.Kept.kept_arg0 m c),
     (h c Cert.ReferenceIdeal.main_arg1).trans (Cert.ReferenceIdeal.Kept.kept_arg1 m c),
     (h c Cert.ReferenceIdeal.main_arg2).trans (Cert.ReferenceIdeal.Kept.kept_arg2 m c),
     (h c Cert.ReferenceIdeal.main_arg3).trans (Cert.ReferenceIdeal.Kept.kept_arg3 m c),
     (h c Cert.ReferenceIdeal.main_arg4).trans (Cert.ReferenceIdeal.Kept.kept_arg4 m c),
     (h c Cert.ReferenceIdeal.main_arg5).trans (Cert.ReferenceIdeal.Kept.kept_arg5 m c)⟩)
    (Cert.ReferenceIdeal.RunP.run (F := Ideal) m ρ)

/-- No operation of the kernel program was rewritten for the reading over the extended reals. -/
theorem preserves : Cert.preserves_Kernel_KernelIdeal := trivial

/-- From memories that agree on the six arguments both programs end with the same result array: the common function
    `kernelOut` of the arguments. -/
theorem algebraic : Cert.algebraic_KernelIdeal_ReferenceIdeal := by
  intro m ρ m' ρ' _ hagree
  refine ⟨fun c => Cert.KernelIdeal.Chain.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c =>
      ⟨(h c).1.trans (Cert.KernelIdeal.Chain.result_eq m ρ Cert.KernelIdeal.RegionDense.arr0 Cert.KernelIdeal.RegionBiasRelu.arr1
          Cert.KernelIdeal.RegionDense.arr2 Cert.KernelIdeal.RegionLogSoftmax.arr3 c), (h c).2⟩)
      (Cert.KernelIdeal.Gen.run_result (F := Ideal) m ρ)
  · refine (θ_run Cert.ReferenceIdeal.defs _ _).mono (fun r h c => ?_) (Cert.ReferenceIdeal.RunP.run (F := Ideal) m' ρ')
    obtain ⟨h0, h1, h2, h3, h4, h5⟩ := hagree c
    refine ⟨?_,
      (h c Cert.ReferenceIdeal.main_arg0).trans (Cert.ReferenceIdeal.Kept.kept_arg0 m' c),
      (h c Cert.ReferenceIdeal.main_arg1).trans (Cert.ReferenceIdeal.Kept.kept_arg1 m' c),
      (h c Cert.ReferenceIdeal.main_arg2).trans (Cert.ReferenceIdeal.Kept.kept_arg2 m' c),
      (h c Cert.ReferenceIdeal.main_arg3).trans (Cert.ReferenceIdeal.Kept.kept_arg3 m' c),
      (h c Cert.ReferenceIdeal.main_arg4).trans (Cert.ReferenceIdeal.Kept.kept_arg4 m' c),
      (h c Cert.ReferenceIdeal.main_arg5).trans (Cert.ReferenceIdeal.Kept.kept_arg5 m' c)⟩
    refine (h c Cert.ReferenceIdeal.main_v62).trans ((Cert.ReferenceIdeal.Chain.ref_result m' c).trans
      ((Cert.Bridge.refOut_eq_kernelOut _ _ _ _ _ _).trans ?_))
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
